-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S2048x128 : Shape := ⟨2, ![2048, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  reducesTo_S_S_d : S_.ReducesTo [] S_

variable [Facts]

def fn_part1 {F : FTy → Type} [FloatOps F] (main_arg4 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  main_v20

def fn {F : FTy → Type} [FloatOps F] (main_arg0 : FVec F S65536x128 .f32) (main_arg1 : FVec F S2048x128 .f32) (main_arg2 : FVec F S_ .f32) (main_arg3 : FVec F S_ .f32) (main_arg4 : FVec F S_ .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_v12 main_v15
-- ==== Kernel.lean ====
abbrev S65536x128 : Shape := ⟨2, ![65536, 128]⟩
abbrev S2048x128 : Shape := ⟨2, ![2048, 128]⟩
abbrev S_ : Shape := ⟨0, ![]⟩
abbrev S128x2048 : Shape := ⟨2, ![128, 2048]⟩
abbrev S2048 : Shape := ⟨1, ![2048]⟩
abbrev S2048x1 : Shape := ⟨2, ![2048, 1]⟩
abbrev S1x2048 : Shape := ⟨2, ![1, 2048]⟩
abbrev S65536x2048 : Shape := ⟨2, ![65536, 2048]⟩
abbrev S2x1x1 : Shape := ⟨3, ![2, 1, 1]⟩
abbrev S2x1x2048 : Shape := ⟨3, ![2, 1, 2048]⟩
abbrev S2048x2048 : Shape := ⟨2, ![2048, 2048]⟩
abbrev S1x1x1 : Shape := ⟨3, ![1, 1, 1]⟩
abbrev S1x1x2048 : Shape := ⟨3, ![1, 1, 2048]⟩
abbrev S1x1 : Shape := ⟨2, ![1, 1]⟩
abbrev S1x2048x1 : Shape := ⟨3, ![1, 2048, 1]⟩
abbrev S1 : Shape := ⟨1, ![1]⟩

abbrev nBuf : Space → Nat
  | .hbm => 35
  | .vmem => 14
  | .smem => 0
  | _ => 0

abbrev bufTy : (tb : Table) → Fin (tcTables nBuf tb) → BufTy
  | .hbm, ⟨0, _⟩ => ⟨S65536x128, .f32⟩
  | .hbm, ⟨1, _⟩ => ⟨S2048x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128x2048, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S1x2048, .f32⟩
  | .hbm, ⟨15, _⟩ => ⟨S65536x128, .f32⟩
  | .hbm, ⟨16, _⟩ => ⟨S65536x2048, .f32⟩
  | .hbm, ⟨17, _⟩ => ⟨S2x1x1, .f32⟩
  | .hbm, ⟨18, _⟩ => ⟨S2x1x2048, .f32⟩
  | .hbm, ⟨19, _⟩ => ⟨S1x1x1, .f32⟩
  | .hbm, ⟨20, _⟩ => ⟨S_, .f32⟩
  | .hbm, ⟨21, _⟩ => ⟨S1x1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x1x2048, .f32⟩
  | .hbm, ⟨27, _⟩ => ⟨S2048, .f32⟩
  | .hbm, ⟨28, _⟩ => ⟨S1x1x2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S128x2048, .f32⟩
  | .local _ .vmem, ⟨3, _⟩ => ⟨S1x2048, .f32⟩
  | .local _ .vmem, ⟨4, _⟩ => ⟨S2048x128, .f32⟩
  | .local _ .vmem, ⟨5, _⟩ => ⟨S2048x128, .f32⟩
  | .local _ .vmem, ⟨6, _⟩ => ⟨S2048x2048, .f32⟩
  | .local _ .vmem, ⟨7, _⟩ => ⟨S2048x2048, .f32⟩
  | .local _ .vmem, ⟨8, _⟩ => ⟨S1x1x1, .f32⟩
  | .local _ .vmem, ⟨9, _⟩ => ⟨S1x1x1, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S2048x128_S128x2048_1_0 : S2048x128.Transposes [1, 0] S128x2048
  reducesTo_S2048x128_S2048_d1 : S2048x128.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  broadcasts_S2048x1_S2048x2048 : S2048x1.Broadcasts S2048x2048
  broadcasts_S1x2048_S2048x2048 : S1x2048.Broadcasts S2048x2048
  reduces_S2048x2048_S2048 : S2048x2048.Reduces [1] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  reduces_S2048x2048_S2048_2 : S2048x2048.Reduces [0] S2048
  shapeCasts_S2048_S1x2048 : S2048.ShapeCasts S1x2048
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  slices_S2x1x2048_S1x1x2048_0_0_0 : S2x1x2048.Slices ![0, 0, 0] S1x1x2048
  shapeCasts_S1x1x2048_S2048 : S1x1x2048.ShapeCasts S2048
  slices_S2x1x2048_S1x1x2048_1_0_0 : S2x1x2048.Slices ![1, 0, 0] S1x1x2048
  reducesTo_S2048_S_d0 : S2048.ReducesTo [0] S_
  dot_S2048x128_S128x2048_S2048x2048_1_0_0_1_n_n_wf : DotDims.WF S2048x128 S128x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S65536x2048.size a
  hwx0_4 : ∀ i : grid0.Coords, EltTy.bits .f32 = 32 ∨ (Rect.block (s := S65536x2048) S2048x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S2x1x2048.size a
  hwx0_6 : ∀ i : grid0.Coords, EltTy.bits .f32 = 32 ∨ (Rect.block (s := S2x1x2048) S1x1x2048.size (cc0_transform_6 i) (hinb0_6 i)).WholeWords (EltTy.packing .f32)

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S2048x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_3) S1x1x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S65536x128 : Shape := ⟨2, ![65536, 128]⟩
abbrev S2048x128 : Shape := ⟨2, ![2048, 128]⟩
abbrev S_ : Shape := ⟨0, ![]⟩
abbrev S65536 : Shape := ⟨1, ![65536]⟩
abbrev S65536x1 : Shape := ⟨2, ![65536, 1]⟩
abbrev S128x2048 : Shape := ⟨2, ![128, 2048]⟩
abbrev S65536x2048 : Shape := ⟨2, ![65536, 2048]⟩
abbrev S2048 : Shape := ⟨1, ![2048]⟩
abbrev S2048x1 : Shape := ⟨2, ![2048, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S2048x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65536x128, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x128, .f32⟩
  | .hbm, ⟨18, _⟩ => ⟨S65536x128, .f32⟩
  | .hbm, ⟨19, _⟩ => ⟨S128x2048, .f32⟩
  | .hbm, ⟨20, _⟩ => ⟨S65536x2048, .f32⟩
  | .hbm, ⟨21, _⟩ => ⟨S65536x128, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S2048x128, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S1x2048, .f32⟩
  | .hbm, ⟨30, _⟩ => ⟨S65536x2048, .f32⟩
  | .hbm, ⟨31, _⟩ => ⟨S65536x2048, .f32⟩
  | .hbm, ⟨32, _⟩ => ⟨S65536x2048, .f32⟩
  | .hbm, ⟨33, _⟩ => ⟨S128x2048, .f32⟩
  | .hbm, ⟨34, _⟩ => ⟨S65536x2048, .f32⟩
  | .hbm, ⟨35, _⟩ => ⟨S_, .f32⟩
  | .hbm, ⟨36, _⟩ => ⟨S65536x2048, .f32⟩
  | .hbm, ⟨37, _⟩ => ⟨S65536x2048, .f32⟩
  | .hbm, ⟨38, _⟩ => ⟨S65536x2048, .f32⟩
  | .hbm, ⟨39, _⟩ => ⟨S_, .f32⟩
  | .hbm, ⟨40, _⟩ => ⟨S65536x2048, .f32⟩
  | .hbm, ⟨41, _⟩ => ⟨S65536x2048, .f32⟩
  | .hbm, ⟨42, _⟩ => ⟨S65536x2048, .f32⟩
  | .hbm, ⟨43, _⟩ => ⟨S_, .f32⟩
  | .hbm, ⟨44, _⟩ => ⟨S65536, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  reducesTo_S65536x128_S65536_d1 : S65536x128.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  transposes_S2048x128_S128x2048_1_0 : S2048x128.Transposes [1, 0] S128x2048
  reducesTo_S2048x128_S2048_d1 : S2048x128.ReducesTo [1] S2048
  bcast_S2048_S2048x1_0 : S2048.BroadcastsInDim S2048x1 (![0] : Fin 1 → Fin S2048x1.rank)
  transposes_S2048x1_S1x2048_1_0 : S2048x1.Transposes [1, 0] S1x2048
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  reducesTo_S65536x2048_S65536_d1 : S65536x2048.ReducesTo [1] S65536
  reducesTo_S65536_S_d0 : S65536.ReducesTo [0] S_
  reducesTo_S65536x2048_S2048_d0 : S65536x2048.ReducesTo [0] S2048
  reducesTo_S2048_S_d0 : S2048.ReducesTo [0] S_
  dot_S65536x128_S128x2048_S65536x2048_1_0_0_1_n_n_wf : DotDims.WF S65536x128 S128x2048 S65536x2048 [1] [0] [0] [1] [] []

variable [Facts₀]

def dot_S65536x128_S128x2048_S65536x2048_1_0_0_1_n_n : DotDims S65536x128 S128x2048 S65536x2048 where
  lhsContracting := [1]
  rhsContracting := [0]
  lhsNonContracting := [0]
  rhsNonContracting := [1]
  lhsBatch := []
  rhsBatch := []
  wf := dot_S65536x128_S128x2048_S65536x2048_1_0_0_1_n_n_wf

class Facts : Prop extends Facts₀ where

variable [Facts]
-- ==== Proof.Pieces.lean ====
/-
  What one run of the kernel body leaves behind, as values.

  The body runs in one of three ways, by the position of the block within its group of sixteen: at the first block of a
  group the two running quantities (the column minima so far, the sum of row minima so far) are reset before they are
  updated; at the last block they are, after the update, also copied out; in between they are only updated.  In every
  case the body writes the normalized block and its product with the prototypes.  Each statement below says what one
  buffer holds after the body, as one pure term of what the body loaded: the block of `x`, the transposed prototypes,
  the prototypes' squared norms, and what the two running quantities held before.  Stated for any float instance.
-/
import proofs.«123686_j32615981646586_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the first output's block is the block of `x` with each row divided by its clamped norm. -/
theorem out_A_3 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : cond0_0 i) (hc1 : ¬cond0_1 i)
    (x0 : Vec F S2048x128 .f32) (x1 : Vec F S128x2048 .f32) (x2 : Vec F S1x2048 .f32) :
    out0_A_3 c i arg2 harg2 arg3 harg3 arg4 harg4 arg5 harg5 arg6 harg6 arg7 harg7 arg8 harg8 arg9 harg9 arg10 harg10 hc0 hc1 x0 x1 x2 = k0_pay7 x0 := by
  unfold out0_A_3
  rw [View.read_writes_eq_canon _ _ _ (cover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case A: the second output's block is the product of that normalized block with the transposed prototypes. -/
theorem out_A_4 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : cond0_0 i) (hc1 : ¬cond0_1 i)
    (x0 : Vec F S2048x128 .f32) (x1 : Vec F S128x2048 .f32) (x2 : Vec F S1x2048 .f32) :
    out0_A_4 c i arg2 harg2 arg3 harg3 arg4 harg4 arg5 harg5 arg6 harg6 arg7 harg7 arg8 harg8 arg9 harg9 arg10 harg10 hc0 hc1 x0 x1 x2 = k0_pay8 x0 x1 := by
  unfold out0_A_4
  rw [View.read_writes_eq_canon _ _ _ (cover0_A_4 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case A: the column-minimum scratch becomes the entrywise minimum of what it held and this block's column minima (the scratch was reset at this point: it held the fold's starting value). -/
theorem sout_A_0 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : cond0_0 i) (hc1 : ¬cond0_1 i)
    (x0 : Vec F S2048x128 .f32) (x1 : Vec F S128x2048 .f32) (x2 : Vec F S1x2048 .f32) :
    sout0_A_0 c i arg2 harg2 arg3 harg3 arg4 harg4 arg5 harg5 arg6 harg6 arg7 harg7 arg8 harg8 arg9 harg9 arg10 harg10 hc0 hc1 x0 x1 x2 = k0_pay2 (k0_pay9 x0 x1 x2) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case A: the sum scratch becomes what it held plus the sum of this block's row minima (the scratch was reset at this point: it held the fold's starting value). -/
theorem sout_A_1 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : cond0_0 i) (hc1 : ¬cond0_1 i)
    (x0 : Vec F S2048x128 .f32) (x1 : Vec F S128x2048 .f32) (x2 : Vec F S1x2048 .f32) :
    sout0_A_1 c i arg2 harg2 arg3 harg3 arg4 harg4 arg5 harg5 arg6 harg6 arg7 harg7 arg8 harg8 arg9 harg9 arg10 harg10 hc0 hc1 x0 x1 x2 = k0_pay1 (k0_pay10 x0 x1 x2) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case B: the first output's block is the block of `x` with each row divided by its clamped norm. -/
theorem out_B_3 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : ¬cond0_1 i)
    (x0 : Vec F S2048x128 .f32) (x1 : Vec F S128x2048 .f32) (x2 : Vec F S1x2048 .f32) (xs0 : Vec F S1x2048 .f32) (xs1 : Vec F S1x1 .f32) :
    out0_B_3 c i arg2 harg2 arg3 harg3 arg4 harg4 arg5 harg5 arg6 harg6 arg7 harg7 arg8 harg8 arg9 harg9 arg10 harg10 hc0 hc1 x0 x1 x2 xs0 xs1 = k0_pay7 x0 := by
  unfold out0_B_3
  rw [View.read_writes_eq_canon _ _ _ (cover0_B_3 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case B: the second output's block is the product of that normalized block with the transposed prototypes. -/
theorem out_B_4 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : ¬cond0_1 i)
    (x0 : Vec F S2048x128 .f32) (x1 : Vec F S128x2048 .f32) (x2 : Vec F S1x2048 .f32) (xs0 : Vec F S1x2048 .f32) (xs1 : Vec F S1x1 .f32) :
    out0_B_4 c i arg2 harg2 arg3 harg3 arg4 harg4 arg5 harg5 arg6 harg6 arg7 harg7 arg8 harg8 arg9 harg9 arg10 harg10 hc0 hc1 x0 x1 x2 xs0 xs1 = k0_pay8 x0 x1 := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case B: the column-minimum scratch becomes the entrywise minimum of what it held and this block's column minima. -/
theorem sout_B_0 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : ¬cond0_1 i)
    (x0 : Vec F S2048x128 .f32) (x1 : Vec F S128x2048 .f32) (x2 : Vec F S1x2048 .f32) (xs0 : Vec F S1x2048 .f32) (xs1 : Vec F S1x1 .f32) :
    sout0_B_0 c i arg2 harg2 arg3 harg3 arg4 harg4 arg5 harg5 arg6 harg6 arg7 harg7 arg8 harg8 arg9 harg9 arg10 harg10 hc0 hc1 x0 x1 x2 xs0 xs1 = k0_pay2 (k0_pay9 x0 x1 x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case B: the sum scratch becomes what it held plus the sum of this block's row minima. -/
theorem sout_B_1 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : ¬cond0_1 i)
    (x0 : Vec F S2048x128 .f32) (x1 : Vec F S128x2048 .f32) (x2 : Vec F S1x2048 .f32) (xs0 : Vec F S1x2048 .f32) (xs1 : Vec F S1x1 .f32) :
    sout0_B_1 c i arg2 harg2 arg3 harg3 arg4 harg4 arg5 harg5 arg6 harg6 arg7 harg7 arg8 harg8 arg9 harg9 arg10 harg10 hc0 hc1 x0 x1 x2 xs0 xs1 = k0_pay1 (k0_pay10 x0 x1 x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1)]
  unfold kernelRun0_B
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case C: the first output's block is the block of `x` with each row divided by its clamped norm. -/
theorem out_C_3 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : cond0_1 i)
    (x0 : Vec F S2048x128 .f32) (x1 : Vec F S128x2048 .f32) (x2 : Vec F S1x2048 .f32) (xs0 : Vec F S1x2048 .f32) (xs1 : Vec F S1x1 .f32) :
    out0_C_3 c i arg2 harg2 arg3 harg3 arg4 harg4 arg5 harg5 arg6 harg6 arg7 harg7 arg8 harg8 arg9 harg9 arg10 harg10 hc0 hc1 x0 x1 x2 xs0 xs1 = k0_pay7 x0 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case C: the second output's block is the product of that normalized block with the transposed prototypes. -/
theorem out_C_4 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : cond0_1 i)
    (x0 : Vec F S2048x128 .f32) (x1 : Vec F S128x2048 .f32) (x2 : Vec F S1x2048 .f32) (xs0 : Vec F S1x2048 .f32) (xs1 : Vec F S1x1 .f32) :
    out0_C_4 c i arg2 harg2 arg3 harg3 arg4 harg4 arg5 harg5 arg6 harg6 arg7 harg7 arg8 harg8 arg9 harg9 arg10 harg10 hc0 hc1 x0 x1 x2 xs0 xs1 = k0_pay8 x0 x1 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case C: the column-minimum scratch becomes the entrywise minimum of what it held and this block's column minima. -/
theorem sout_C_0 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : cond0_1 i)
    (x0 : Vec F S2048x128 .f32) (x1 : Vec F S128x2048 .f32) (x2 : Vec F S1x2048 .f32) (xs0 : Vec F S1x2048 .f32) (xs1 : Vec F S1x1 .f32) :
    sout0_C_0 c i arg2 harg2 arg3 harg3 arg4 harg4 arg5 harg5 arg6 harg6 arg7 harg7 arg8 harg8 arg9 harg9 arg10 harg10 hc0 hc1 x0 x1 x2 xs0 xs1 = k0_pay2 (k0_pay9 x0 x1 x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case C: the sum scratch becomes what it held plus the sum of this block's row minima. -/
theorem sout_C_1 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : cond0_1 i)
    (x0 : Vec F S2048x128 .f32) (x1 : Vec F S128x2048 .f32) (x2 : Vec F S1x2048 .f32) (xs0 : Vec F S1x2048 .f32) (xs1 : Vec F S1x1 .f32) :
    sout0_C_1 c i arg2 harg2 arg3 harg3 arg4 harg4 arg5 harg5 arg6 harg6 arg7 harg7 arg8 harg8 arg9 harg9 arg10 harg10 hc0 hc1 x0 x1 x2 xs0 xs1 = k0_pay1 (k0_pay10 x0 x1 x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case C: the third output's block is the sum scratch after this point's update. -/
theorem out_C_5 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : cond0_1 i)
    (x0 : Vec F S2048x128 .f32) (x1 : Vec F S128x2048 .f32) (x2 : Vec F S1x2048 .f32) (xs0 : Vec F S1x2048 .f32) (xs1 : Vec F S1x1 .f32) :
    out0_C_5 c i arg2 harg2 arg3 harg3 arg4 harg4 arg5 harg5 arg6 harg6 arg7 harg7 arg8 harg8 arg9 harg9 arg10 harg10 hc0 hc1 x0 x1 x2 xs0 xs1 = k0_pay3 (k0_pay1 (k0_pay10 x0 x1 x2) xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

/-- Case C: the fourth output's block is the column-minimum scratch after this point's update. -/
theorem out_C_6 (c : Dev nD) (i : grid0.Coords) (arg2 : Memref sig .tc .vmem S2048x128 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x2048 .f32) (harg6 : arg6.IsWhole) (arg7 : Memref sig .tc .vmem S1x1x1 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x1 .f32) (harg10 : arg10.IsWhole) (hc0 : ¬cond0_0 i) (hc1 : cond0_1 i)
    (x0 : Vec F S2048x128 .f32) (x1 : Vec F S128x2048 .f32) (x2 : Vec F S1x2048 .f32) (xs0 : Vec F S1x2048 .f32) (xs1 : Vec F S1x1 .f32) :
    out0_C_6 c i arg2 harg2 arg3 harg3 arg4 harg4 arg5 harg5 arg6 harg6 arg7 harg7 arg8 harg8 arg9 harg9 arg10 harg10 hc0 hc1 x0 x1 x2 xs0 xs1 = k0_pay4 (k0_pay2 (k0_pay9 x0 x1 x2) xs0) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 xs0 xs1)]
  unfold kernelRun0_C
  dsimp only
  sl_unfold_words
  first
    | rw [View.canon_unit_zero hz2]
    | rw [View.canon_cons_unit_zero hz2]
    | rw [View.canon_unit_zero hz3]
    | rw [View.canon_cons_unit_zero hz3]
  simp only [View.readCov_unit_zero (S := S1x2048) _ hz2, View.readCov_unit_zero (S := S1x1) _ hz2, View.readAt_eq_ld, harg2.read_unread, harg3.read_unread, harg4.read_unread,
    harg9.read_unread, harg10.read_unread, View.ld_unit_zero (S := S2048x128) hz2, View.ld_unit_zero (S := S128x2048) hz2,
    View.ld_unit_zero (S := S1x2048) hz2, View.ld_unit_zero (S := S1x1) hz2]

end Cert.KernelIdeal.Pieces

end
-- ==== Proof.PointVals.lean ====
/-
  What the buffers hold after the body at a grid point, component by component, as terms of the body's arithmetic.

  After every point the first two outputs hold the normalized block and its product with the prototypes.  The two
  running quantities (column minima, sum of row minima) hold, after the first point of a group, the update of their
  starting values, and after any other point the update of what the point before left.  After the last point of a
  group the last two outputs hold copies of the two running quantities.  Stated for any float instance.
-/
import proofs.«123686_j32615981646586_2_alg».proof.Proof.Pieces

noncomputable section

open Idealize.ShloMosaic Idealize.ShloMosaic.TcCoe Idealize.SL.Sem

namespace Cert.KernelIdeal.PointVals

open Cert.KernelIdeal Cert.KernelIdeal.Gen Cert.KernelIdeal.Pieces

variable {F : FTy → Type} [FloatOps F]
variable (m : (ℓ : Loc nD τ sig) → Buf (Elt F) ℓ)

theorem lt32 (t : Fin cfg0.N) : t.val < 32 := lt_of_lt_of_eq t.isLt N_0

/-- After every point the first output holds the normalized block. -/
theorem o3_eq (c : Dev nD) (t : Fin cfg0.N) :
    (outsAt0 m c t.val t.isLt).1 = k0_pay7 (iblk m c 0 t) := by
  by_cases h0 : t.val % 16 = 0
  · have h1 : ¬t.val % 16 = 15 := by omega
    rw [outsAt0_A m c t h0 h1]
    dsimp only
    exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t)
  · by_cases h1 : t.val % 16 = 15
    · rw [outsAt0_C m c t h0 h1]
      dsimp only
      exact out_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · rw [outsAt0_B m c t h0 h1]
      dsimp only
      exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- After every point the second output holds the product of the normalized block with the prototypes. -/
theorem o4_eq (c : Dev nD) (t : Fin cfg0.N) :
    (outsAt0 m c t.val t.isLt).2.1 = k0_pay8 (iblk m c 0 t) (iblk m c 1 t) := by
  by_cases h0 : t.val % 16 = 0
  · have h1 : ¬t.val % 16 = 15 := by omega
    rw [outsAt0_A m c t h0 h1]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t)
  · by_cases h1 : t.val % 16 = 15
    · rw [outsAt0_C m c t h0 h1]
      dsimp only
      exact out_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · rw [outsAt0_B m c t h0 h1]
      dsimp only
      exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- After the first point of a group the column minima are the update of the fold's starting value. -/
theorem s0_first (c : Dev nD) (t : Fin cfg0.N) (h0 : t.val % 16 = 0) :
    (outsAt0 m c t.val t.isLt).2.2.2.2.1 = k0_pay2 (k0_pay9 (iblk m c 0 t) (iblk m c 1 t) (iblk m c 2 t)) (k0_pay5 (F := F)) := by
  have h1 : ¬t.val % 16 = 15 := by omega
  rw [outsAt0_A m c t h0 h1]
  dsimp only
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t)

/-- After the first point of a group the sum of row minima is the update of zero. -/
theorem s1_first (c : Dev nD) (t : Fin cfg0.N) (h0 : t.val % 16 = 0) :
    (outsAt0 m c t.val t.isLt).2.2.2.2.2 = k0_pay1 (k0_pay10 (iblk m c 0 t) (iblk m c 1 t) (iblk m c 2 t)) (k0_pay6 (F := F)) := by
  have h1 : ¬t.val % 16 = 15 := by omega
  rw [outsAt0_A m c t h0 h1]
  dsimp only
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t)

/-- After any other point the column minima are the update of what the point before left. -/
theorem s0_next (c : Dev nD) (t : Fin cfg0.N) (h0 : ¬t.val % 16 = 0) :
    (outsAt0 m c t.val t.isLt).2.2.2.2.1
      = k0_pay2 (k0_pay9 (iblk m c 0 t) (iblk m c 1 t) (iblk m c 2 t)) (outsAt0 m c (t.val - 1) (Nat.lt_of_le_of_lt (Nat.sub_le _ _) t.isLt)).2.2.2.2.1 := by
  by_cases h1 : t.val % 16 = 15
  · rw [outsAt0_C m c t h0 h1]
    dsimp only
    exact sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- After any other point the sum of row minima is the update of what the point before left. -/
theorem s1_next (c : Dev nD) (t : Fin cfg0.N) (h0 : ¬t.val % 16 = 0) :
    (outsAt0 m c t.val t.isLt).2.2.2.2.2
      = k0_pay1 (k0_pay10 (iblk m c 0 t) (iblk m c 1 t) (iblk m c 2 t)) (outsAt0 m c (t.val - 1) (Nat.lt_of_le_of_lt (Nat.sub_le _ _) t.isLt)).2.2.2.2.2 := by
  by_cases h1 : t.val % 16 = 15
  · rw [outsAt0_C m c t h0 h1]
    dsimp only
    exact sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- After the last point of a group the third output is a copy of the sum of row minima. -/
theorem o5_last (c : Dev nD) (t : Fin cfg0.N) (h1 : t.val % 16 = 15) :
    (outsAt0 m c t.val t.isLt).2.2.1 = k0_pay3 (outsAt0 m c t.val t.isLt).2.2.2.2.2 := by
  have h0 : ¬t.val % 16 = 0 := by omega
  rw [outsAt0_C m c t h0 h1]
  dsimp only
  exact (out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay3 (sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

/-- After the last point of a group the fourth output is a copy of the column minima. -/
theorem o6_last (c : Dev nD) (t : Fin cfg0.N) (h1 : t.val % 16 = 15) :
    (outsAt0 m c t.val t.isLt).2.2.2.1 = k0_pay4 (outsAt0 m c t.val t.isLt).2.2.2.2.1 := by
  have h0 : ¬t.val % 16 = 0 := by omega
  rw [outsAt0_C m c t h0 h1]
  dsimp only
  exact (out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay4 (sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

end Cert.KernelIdeal.PointVals

end
-- ==== Proof.Spec.lean ====
/-
  The five results as functions of the argument arrays, over the extended reals.

  `x` has 65536 rows of 128 entries and `w` has 2048 rows (prototypes) of 128 entries.  Each row of `x` is divided
  by its Euclidean norm clamped below by a small positive constant (`unit`); `logit r j` is the inner product of
  unit row `r` with prototype `j`; `dist r j` is the distance between them through the expansion
  `|z|² + |w|² − 2 z·w`, clamped at zero before the square root.  The two scalar results average, over the rows, each
  row's least distance to a prototype, and, over the prototypes, each prototype's least distance to a row; a least
  value is the fold of `min` from `+∞` over the index set.  A third scalar combines three scalar arguments.
  Constants are kept as the binary words both programs spell them with.
-/
import Idealize.ShloMosaic.PureOps.Ideal
import Idealize.ShloMosaic.Lib.ValueIdx

noncomputable section

namespace Cert.Proto

open Idealize.ShloMosaic Idealize.ShloMosaic.ValueIdx
open scoped BigOperators

/-- The lower clamp of a row's norm. -/
def eps : EReal := Ideal.ofBits .f32 0x2B8CBCCC#32
/-- The factor of the cross term. -/
def two : EReal := Ideal.ofBits .f32 0x40000000#32
/-- The lower clamp of a squared distance. -/
def zeroW : EReal := Ideal.ofBits .f32 0x00000000#32
/-- The value a least-value fold starts from. -/
def pinf : EReal := Ideal.ofBits .f32 0x7F800000#32
/-- The weight of the second scalar argument. -/
def half : EReal := Ideal.ofBits .f32 0x3F000000#32
/-- The number of rows, as the divisor of the first average. -/
def nRows : EReal := Ideal.ofBits .f32 0x47800000#32
/-- The number of prototypes, as the divisor of the second average. -/
def nProtos : EReal := Ideal.ofBits .f32 0x45000000#32

section
variable (x : (⟨2, ![65536, 128]⟩ : Shape).Idx → EReal) (w : (⟨2, ![2048, 128]⟩ : Shape).Idx → EReal)

/-- The clamped Euclidean norm of row `r`. -/
def rowNorm (r : Fin 65536) : EReal := max (Ideal.sqrt (∑ k : Fin 128, x (ix2 r k) * x (ix2 r k))) eps

/-- Row `r` divided by its clamped norm, at entry `d`. -/
def unit (r : Fin 65536) (d : Fin 128) : EReal := Ideal.div (x (ix2 r d)) (rowNorm x r)

/-- The inner product of unit row `r` with prototype `j`. -/
def logit (r : Fin 65536) (j : Fin 2048) : EReal := ∑ k : Fin 128, unit x r k * w (ix2 j k)

/-- The squared norm of unit row `r`. -/
def unitSq (r : Fin 65536) : EReal := ∑ k : Fin 128, unit x r k * unit x r k

/-- The squared norm of prototype `j`. -/
def protoSq (j : Fin 2048) : EReal := ∑ k : Fin 128, w (ix2 j k) * w (ix2 j k)

/-- The distance between unit row `r` and prototype `j`. -/
def dist (r : Fin 65536) (j : Fin 2048) : EReal :=
  Ideal.sqrt (max ((unitSq x r + protoSq w j) - two * logit x w r j) zeroW)

/-- Row `r`'s least distance to a prototype. -/
def rowMin (r : Fin 65536) : EReal := (Finset.univ : Finset (Fin 2048)).fold min pinf (fun j => dist x w r j)

/-- Prototype `j`'s least distance to a row. -/
def colMin (j : Fin 2048) : EReal := (Finset.univ : Finset (Fin 65536)).fold min pinf (fun r => dist x w r j)

/-- The average over the rows of the least distance to a prototype. -/
def propagation : EReal := Ideal.div (∑ r : Fin 65536, rowMin x w r) nRows

/-- The average over the prototypes of the least distance to a row. -/
def embSim : EReal := Ideal.div (∑ j : Fin 2048, colMin x w j) nProtos

end

/-- The combination of the three scalar arguments. -/
def combine (a b c : EReal) : EReal := (a + half * b) + c

end Cert.Proto

end
-- ==== Proof.Blocks.lean ====
/-
  What the kernel's three input blocks hold at a grid point.

  The grid has 32 points; point `t` handles rows `2048 t … 2048 t + 2047` of `x` (sixteen consecutive points form one
  group).  The first input block at point `t` is those rows of `x`.  The second and third blocks are the same at every
  point: the prototypes transposed, and the row of the prototypes' squared norms; both are computed by the operations
  that run before the grid, so their contents are read off those operations.
-/
import proofs.«123686_j32615981646586_2_alg».proof.Proof.Gen.KernelIdeal.Frame
import proofs.«123686_j32615981646586_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.Blocks

open Cert.KernelIdeal Cert.KernelIdeal.Gen

/-- The row of `x` that entry `p` of point `t`'s block holds. -/
def rowOf (t : Fin cfg0.N) (p : Fin 2048) : Fin 65536 :=
  ⟨2048 * t.val + p.val, by have h : t.val < 32 := lt_of_lt_of_eq t.isLt N_0; have := p.isLt; omega⟩

theorem rowOf_val (t : Fin cfg0.N) (p : Fin 2048) : (rowOf t p).val = 2048 * t.val + p.val := rfl

/-- The block index of the windows that follow the rows of `x` (the first input and the first two outputs): point `t`
    itself along the rows, zero along the columns. -/
theorem index_rows : ∀ t : Fin cfg0.N,
    (win0_0.index t 0 = t.val ∧ win0_0.index t 1 = 0) ∧ (win0_3.index t 0 = t.val ∧ win0_3.index t 1 = 0)
      ∧ (win0_4.index t 0 = t.val ∧ win0_4.index t 1 = 0) :=
  (by decide +kernel : ∀ t : Fin grid0.N, _)

/-- The two windows that never move. -/
theorem index_fixed : ∀ t : Fin cfg0.N,
    (win0_1.index t 0 = 0 ∧ win0_1.index t 1 = 0) ∧ (win0_2.index t 0 = 0 ∧ win0_2.index t 1 = 0) :=
  (by decide +kernel : ∀ t : Fin grid0.N, _)

/-- The block index of the two per-group outputs: the group of the point. -/
theorem index_group : ∀ t : Fin cfg0.N,
    (win0_5.index t 0 = t.val / 16 ∧ win0_5.index t 1 = 0 ∧ win0_5.index t 2 = 0)
      ∧ (win0_6.index t 0 = t.val / 16 ∧ win0_6.index t 1 = 0 ∧ win0_6.index t 2 = 0) :=
  (by decide +kernel : ∀ t : Fin grid0.N, _)

section
variable {F : FTy → Type} [FloatOps F]
variable (m : (ℓ : Loc nD τ sig) → Buf (Elt F) ℓ)

/-- The first block at point `t` is rows `2048 t + p` of `x`. -/
theorem iblk0_apply (c : Dev nD) (t : Fin cfg0.N) (p : Fin 2048) (d : Fin 128) :
    (iblk m c 0 t : Vec F S2048x128 .f32) (ix2 p d) = m ((c : Thread nD τ).loc main_arg0) (ix2 (rowOf t p) d) := by
  unfold iblk
  rw [View.read_apply]
  show V m c main_arg0 _ = _
  rw [V_main_arg0]
  congr 1
  funext a
  apply Fin.ext
  match a with
  | ⟨0, _⟩ => show win0_0.index t 0 * 2048 + 1 * p.val = 2048 * t.val + p.val; rw [(index_rows t).1.1]; omega
  | ⟨1, _⟩ => show win0_0.index t 1 * 128 + 1 * d.val = d.val; rw [(index_rows t).1.2]; omega

/-- What the operations before the grid leave in the second window's array: the prototypes transposed. -/
theorem V_protoT (c : Dev nD) :
    (V m c main_v3 : S128x2048.Idx → Elt F .f32)
      = transpose S128x2048 [1, 0] (m ((c : Thread nD τ).loc main_arg1)) transposes_S2048x128_S128x2048_1_0 := by
  show StableHlo.after hostOps0 (fun b => m (c, b)) (Proc.devRef .tc main_v3) = _
  after_results

/-- The second block, at every point, is the prototypes transposed. -/
theorem iblk1_apply (c : Dev nD) (t : Fin cfg0.N) (k : Fin 128) (j : Fin 2048) :
    (iblk m c 1 t : Vec F S128x2048 .f32) (ix2 k j) = m ((c : Thread nD τ).loc main_arg1) (ix2 j k) := by
  unfold iblk
  rw [View.read_apply]
  show V m c main_v3 _ = _
  rw [V_protoT]
  refine Eq.trans ?_ (transpose_ix2_apply (m ((c : Thread nD τ).loc main_arg1)) transposes_S2048x128_S128x2048_1_0 k j)
  congr 1
  funext a
  apply Fin.ext
  match a with
  | ⟨0, _⟩ => show win0_1.index t 0 * 128 + 1 * k.val = k.val; rw [(index_fixed t).1.1]; omega
  | ⟨1, _⟩ => show win0_1.index t 1 * 2048 + 1 * j.val = j.val; rw [(index_fixed t).1.2]; omega

/-- What the operations before the grid leave in the third window's array: the prototypes' squared norms, as a row. -/
theorem V_protoSq (c : Dev nD) :
    (V m c main_v7 : S1x2048.Idx → Elt F .f32)
      = transpose S1x2048 [1, 0] (broadcastInDim S2048x1 ![0] bcast_S2048_S2048x1_0
          (Host.reduceAdd (mulf (m ((c : Thread nD τ).loc main_arg1)) (m ((c : Thread nD τ).loc main_arg1)))
            (constant S_ .f32 0x00000000#32) reducesTo_S2048x128_S2048_d1 h_S_)) transposes_S2048x1_S1x2048_1_0 := by
  show StableHlo.after hostOps0 (fun b => m (c, b)) (Proc.devRef .tc main_v7) = _
  after_results

end

/-- The sum of the squares of a prototype's entries, as the operations before the grid compute it, at `Ideal`. -/
theorem protoSq_host (w : S2048x128.Idx → EReal) (j : Fin 2048) (u : Fin 1) :
    transpose S1x2048 [1, 0] (broadcastInDim S2048x1 ![0] bcast_S2048_S2048x1_0
        (Host.reduceAdd (F := Ideal) (mulf w w) (constant S_ .f32 0x00000000#32) reducesTo_S2048x128_S2048_d1 h_S_))
      transposes_S2048x1_S1x2048_1_0 (ix2 u j) = Cert.Proto.protoSq w j := by
  rw [transpose_ix2_apply _ transposes_S2048x1_S1x2048_1_0 u j]
  rw [broadcastInDim_apply _ bcast_S2048_S2048x1_0 _ (ix2 j u) (ix1 j) (fun a => match a with
    | ⟨0, _⟩ => by show j.val = if (2048 : Nat) = 1 then 0 else j.val; rw [if_neg (by decide)])]
  simp only [Host.reduceAdd, Ideal.hostReduceAdd_def]
  rw [Ideal.hostReduceAdd_single reducesTo_S2048x128_S2048_d1 (by decide)]
  show Ideal.ofBits .f32 0x00000000#32 + _ = _
  rw [Ideal.ofBits_zero_f32, zero_add]
  unfold Cert.Proto.protoSq
  refine Finset.sum_congr rfl fun k _ => ?_
  show w _ * w _ = _
  have e : (Shape.Reduces.lift (by decide : S2048x128.Reduces [1] S2048) (ix1 j) k) = ix2 j k :=
    funext fun a => Fin.ext (by match a with | ⟨0, _⟩ => rfl | ⟨1, _⟩ => rfl)
  rw [e]
  rfl

/-- The third block, at every point, is the row of the prototypes' squared norms. -/
theorem iblk2_apply (m : (ℓ : Loc nD τ sig) → Buf (Elt Ideal) ℓ) (c : Dev nD) (t : Fin cfg0.N) (j : Fin 2048) :
    (iblk m c 2 t : Vec Ideal S1x2048 .f32) (ix2 (0 : Fin 1) j) = Cert.Proto.protoSq (m ((c : Thread nD τ).loc main_arg1)) j := by
  unfold iblk
  rw [View.read_apply]
  show V m c main_v7 _ = _
  rw [V_protoSq]
  refine Eq.trans ?_ (protoSq_host (m ((c : Thread nD τ).loc main_arg1)) j 0)
  congr 1
  funext a
  apply Fin.ext
  match a with
  | ⟨0, _⟩ => show win0_2.index t 0 * 1 + 1 * 0 = 0; rw [(index_fixed t).2.1]
  | ⟨1, _⟩ => show win0_2.index t 1 * 2048 + 1 * j.val = j.val; rw [(index_fixed t).2.2]; omega

end Cert.KernelIdeal.Blocks

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibIndexSums.lean ====
/-
  Finite sums over the index set of a small array, taken coordinate by coordinate, and the inclusion of the reals in the
  extended reals carried through a finite sum.  A rank-1 index set is its coordinate's range and a rank-3 index set is the
  product of its three coordinates' ranges, so a sum over either is an iterated sum over the coordinates (the rank-2 case
  is the library's `sum_idx2`).
-/
import Idealize.ShloMosaic.PureOps.Ideal
import Idealize.ShloMosaic.Lib.ValueIdx

noncomputable section

namespace Cert.IndexSums

open Idealize.ShloMosaic Idealize.ShloMosaic.ValueIdx

/-- A sum over a rank-1 index set is the sum over its one coordinate. -/
theorem sum_idx1 {M : Type*} [AddCommMonoid M] {n : Nat} (f : (⟨1, ![n]⟩ : Shape).Idx → M) :
    ∑ q, f q = ∑ b : Fin n, f (ix1 b) := by
  let eqv : (⟨1, ![n]⟩ : Shape).Idx ≃ Fin n :=
    ⟨fun q => q 0, fun b => ix1 b, fun q => (eq_ix1 q).symm, fun _ => rfl⟩
  exact (Equiv.sum_comp eqv.symm f).symm

/-- A rank-3 index set is the product of its three coordinate ranges … -/
def idxEquiv3 {n0 n1 n2 : Nat} : (⟨3, ![n0, n1, n2]⟩ : Shape).Idx ≃ Fin n0 × Fin n1 × Fin n2 where
  toFun q := (q 0, q 1, q 2)
  invFun p := ix3 p.1 p.2.1 p.2.2
  left_inv q := (eq_ix3 q).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The inclusion of the reals in the extended reals commutes with a finite sum. -/
theorem coe_sum {ι : Type*} (s : Finset ι) (f : ι → ℝ) :
    ((∑ x ∈ s, f x : ℝ) : EReal) = ∑ x ∈ s, ((f x : ℝ) : EReal) := by
  classical
  induction s using Finset.induction_on with
  | empty => rw [Finset.sum_empty, Finset.sum_empty, EReal.coe_zero]
  | insert x s hx ih => rw [Finset.sum_insert hx, Finset.sum_insert hx, EReal.coe_add, ih]

end Cert.IndexSums

end
-- ==== Proof.PayValue.lean ====
/-
  The values the kernel's body stores, read at one index over the extended reals.

  One grid step holds a block of 2048 rows of `x`, the prototypes transposed, and the prototypes' squared norms.
  From them the body forms: each row divided by its clamped Euclidean norm; the inner products of those unit rows
  with every prototype (a plain matrix product); the distances through `|z|² + |w|² − 2 z·w`, clamped at zero
  under the square root; each row's least distance (a fold of `min` from `+∞` along the row); the running
  total of the rows' least distances and the running least distance of each prototype (a fold of `min` down a
  column, met with what was there before); the two running cells' initial values; and the two cells copied out
  with unit axes added.  Each lemma below says what one of these is at an index given by its coordinates, in the
  words of the specification.
-/
import proofs.«123686_j32615981646586_2_alg».proof.Proof.Gen.KernelIdeal.Skeleton
import proofs.«123686_j32615981646586_2_alg».proof.Proof.Spec
import proofs.«123686_j32615981646586_2_alg».proof.Proof.LibColumnLayout
import proofs.«123686_j32615981646586_2_alg».proof.Proof.LibMatmulPlain
import proofs.«123686_j32615981646586_2_alg».proof.Proof.LibIndexSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Cert.Proto Idealize.ShloMosaic Idealize.ShloMosaic.ValueIdx
open scoped BigOperators

/-! ## The initial values of the two running cells -/

/-- The running least distances start at `+∞`. -/
theorem pay5_apply (a : Fin 1) (j : Fin 2048) : k0_pay5 (F := Ideal) (ix2 a j) = pinf := by
  unfold k0_pay5
  rw [shapeCast_self]
  rfl

/-- The running total starts at zero. -/
theorem pay6_apply (a b : Fin 1) : k0_pay6 (F := Ideal) (ix2 a b) = zeroW := by
  unfold k0_pay6
  rw [shapeCast_self]
  rfl

/-! ## The two cells copied out with unit axes added -/

/-- The total, as a `1 × 1 × 1` array, is the cell. -/
theorem pay3_apply (v53 : Vec Ideal S1x1 .f32) (a b c : Fin 1) :
    k0_pay3 (F := Ideal) v53 (ix3 a b c) = v53 (ix2 0 0) := by
  unfold k0_pay3
  rw [shapeCast_ab_1ab_apply, Subsingleton.elim b 0, Subsingleton.elim c 0]

/-- The least distances, as a `1 × 1 × 2048` array, are the row of cells. -/
theorem pay4_apply (v56 : Vec Ideal S1x2048 .f32) (a b : Fin 1) (j : Fin 2048) :
    k0_pay4 (F := Ideal) v56 (ix3 a b j) = v56 (ix2 0 j) := by
  unfold k0_pay4
  rw [shapeCast_ab_1ab_apply, Subsingleton.elim b 0]

/-! ## Reductions along one axis, read at coordinates -/

/-- Over row `p`, the index with coordinate `k` inserted on the second axis is `(p, k)`. -/
theorem lift_row (h : S2048x128.Reduces [1] S2048) (p : Fin 2048) (k : Fin 128) :
    h.lift (ix1 p) k = ix2 p k := by
  funext c
  apply Fin.ext
  match c with
  | ⟨0, _⟩ => rfl
  | ⟨1, _⟩ => rfl

/-- A sum along the rows of a `2048 × 128` array, at row `p`. -/
theorem rowSum_apply (v : FVec Ideal S2048x128 .f32) (h : S2048x128.Reduces [1] S2048) (hφ : FKind.Formats .f32)
    (hacc : (0x00000000#32 : BitVec 32) = FKind.add.neutral .f32 hφ) (p : Fin 2048) :
    multiReduction (F := Ideal) .add [1] S2048 v 0x00000000#32 h hφ hacc (ix1 p) = ∑ k : Fin 128, v (ix2 p k) := by
  refine (Ideal.multiReduction_add_single v _ h hφ hacc (ix1 p)).trans ?_
  exact Finset.sum_congr rfl fun k _ => congrArg v (lift_row h p k)

/-- A row's sum of squares kept as a one-column matrix, at `(p, 0)`. -/
theorem sqCol_apply (v : FVec Ideal S2048x128 .f32) (h : S2048x128.Reduces [1] S2048) (hφ : FKind.Formats .f32)
    (hacc : (0x00000000#32 : BitVec 32) = FKind.add.neutral .f32 hφ) (hc : S2048.ShapeCasts S2048x1)
    (p : Fin 2048) (u : Fin 1) :
    shapeCast S2048x1 (multiReduction (F := Ideal) .add [1] S2048 (mulf v v) 0x00000000#32 h hφ hacc) hc (ix2 p u)
      = ∑ k : Fin 128, v (ix2 p k) * v (ix2 p k) := by
  refine (Cert.ColumnLayout.shapeCast_a_a1_apply _ hc p u).trans ?_
  exact rowSum_apply (mulf v v) h hφ hacc p

/-! ## A row divided by its clamped norm -/

/-- Each entry of row `p` divided by the row's Euclidean norm, the norm clamped below. -/
theorem unitRow_apply (v : FVec Ideal S2048x128 .f32) (p : Fin 2048) (d : Fin 128) :
    k0_pay7 (F := Ideal) v (ix2 p d)
      = Ideal.div (v (ix2 p d)) (max (Ideal.sqrt (∑ k : Fin 128, v (ix2 p k) * v (ix2 p k))) eps) := by
  unfold k0_pay7
  refine congrArg (Ideal.div (v (ix2 p d))) ?_
  refine (Cert.ColumnLayout.broadcastTo_a1_ab_apply _ _ p d).trans ?_
  refine congrArg (fun t => max (Ideal.sqrt t) eps) ?_
  exact sqCol_apply v _ _ _ _ p 0

/-! ## The matrix product of the unit rows with the prototypes -/

/-- The product's dimension numbers are those of a plain `M × K` by `K × N` product. -/
theorem plain : MatmulPlain.IsPlain dot_S2048x128_S128x2048_S2048x2048_1_0_0_1_n_n :=
  ⟨rfl, rfl, rfl, rfl, rfl, rfl⟩

/-- A `2048 × 128` by `128 × 2048` product into the zero accumulator, at `(p, j)`. -/
theorem product_apply (l : FVec Ideal S2048x128 .f32) (r : FVec Ideal S128x2048 .f32)
    (hc : S128x2048.ShapeCasts S128x2048) (p : Fin 2048) (j : Fin 2048) :
    matmul (F := Ideal) dot_S2048x128_S128x2048_S2048x2048_1_0_0_1_n_n (some .fp32) l (shapeCast S128x2048 r hc)
        (constant (F := Ideal) S2048x2048 .f32 0x00000000#32) (ix2 p j)
      = ∑ k : Fin 128, l (ix2 p k) * r (ix2 k j) := by
  rw [shapeCast_self]
  exact MatmulPlain.matmul_zero_apply plain _ l r p j

/-! ## Folds of `min` along one axis, read at coordinates -/

/-- Over row `p` of a square array, the index with coordinate `j` inserted on the second axis is `(p, j)`. -/
theorem lift_sq_row (h : S2048x2048.Reduces [1] S2048) (p : Fin 2048) (j : Fin 2048) :
    h.lift (ix1 p) j = ix2 p j := by
  funext c
  apply Fin.ext
  match c with
  | ⟨0, _⟩ => rfl
  | ⟨1, _⟩ => rfl

/-- Over column `j` of a square array, the index with coordinate `p` inserted on the first axis is `(p, j)`. -/
theorem lift_sq_col (h : S2048x2048.Reduces [0] S2048) (j : Fin 2048) (p : Fin 2048) :
    h.lift (ix1 j) p = ix2 p j := by
  funext c
  apply Fin.ext
  match c with
  | ⟨0, _⟩ => rfl
  | ⟨1, _⟩ => rfl

/-- The least entry of row `p`: the fold of `min` from `+∞` over the row. -/
theorem rowLeast_apply (v : FVec Ideal S2048x2048 .f32) (h : S2048x2048.Reduces [1] S2048) (hφ : FKind.Formats .f32)
    (hacc : (0x7F800000#32 : BitVec 32) = FKind.minimumf.neutral .f32 hφ) (p : Fin 2048) :
    multiReduction (F := Ideal) .minimumf [1] S2048 v 0x7F800000#32 h hφ hacc (ix1 p)
      = (Finset.univ : Finset (Fin 2048)).fold min pinf (fun j => v (ix2 p j)) := by
  refine (multiReduction_minimumf_eq_fold v _ h hφ hacc (ix1 p)).trans ?_
  refine (h.fold_filter_drop_single _ _ v (ix1 p)).trans ?_
  exact Finset.fold_congr fun j _ => congrArg v (lift_sq_row h p j)

/-- The least entry of column `j`: the fold of `min` from `+∞` down the column. -/
theorem colLeast_apply (v : FVec Ideal S2048x2048 .f32) (h : S2048x2048.Reduces [0] S2048) (hφ : FKind.Formats .f32)
    (hacc : (0x7F800000#32 : BitVec 32) = FKind.minimumf.neutral .f32 hφ) (j : Fin 2048) :
    multiReduction (F := Ideal) .minimumf [0] S2048 v 0x7F800000#32 h hφ hacc (ix1 j)
      = (Finset.univ : Finset (Fin 2048)).fold min pinf (fun p => v (ix2 p j)) := by
  refine (multiReduction_minimumf_eq_fold v _ h hφ hacc (ix1 j)).trans ?_
  refine (h.fold_filter_drop_single _ _ v (ix1 j)).trans ?_
  exact Finset.fold_congr fun p _ => congrArg v (lift_sq_col h j p)

/-! ## The total of a column -/

/-- The sum of a one-column matrix viewed as a `1 × 2048 × 1` array, over both of its axes that have extent. -/
theorem total_apply (v : FVec Ideal S2048x1 .f32) (hc : S2048x1.ShapeCasts S1x2048x1)
    (h : S1x2048x1.Reduces [1, 2] S1) (hφ : FKind.Formats .f32)
    (hacc : (0x00000000#32 : BitVec 32) = FKind.add.neutral .f32 hφ) (j : S1.Idx) :
    multiReduction (F := Ideal) .add [1, 2] S1 (shapeCast S1x2048x1 v hc) 0x00000000#32 h hφ hacc j
      = ∑ p : Fin 2048, v (ix2 p 0) := by
  refine (Ideal.multiReduction_add_total _ _ h (fun b => ?_) hφ hacc j).trans ?_
  · match b with
    | ⟨0, _⟩ => rfl
  refine (Cert.IndexSums.sum_idx3 _).trans ?_
  rw [Fin.sum_univ_one]
  refine Finset.sum_congr rfl fun p _ => ?_
  rw [Fin.sum_univ_one]
  exact shapeCast_ab_1ab_apply v hc 0 p 0

/-- A one-entry vector viewed as a `1 × 1 × 1` array is its entry, wherever it is read. -/
theorem cellCast_apply (v : FVec Ideal S1 .f32) (hc : S1.ShapeCasts S1x1x1) (i : S1x1x1.Idx) :
    shapeCast S1x1x1 v hc i = v (ix1 (0 : Fin 1)) := by
  obtain ⟨a, b, c, rfl⟩ : ∃ (a b c : Fin 1), i = ix3 a b c := ⟨i 0, i 1, i 2, eq_ix3 i⟩
  refine shapeCast_apply v hc _ _ ?_
  rw [Shape.rowMajor_val_one, Shape.rowMajor_val_three]
  show 0 = (a.val * 1 + b.val) * 1 + c.val
  omega

/-! ## The two running cells after one block -/

/-- The running total after a block: what was there plus the block's sum of least distances. -/
theorem pay1_apply (v32 : FVec Ideal S2048x1 .f32) (v33 : Vec Ideal S1x1 .f32) (a b : Fin 1) :
    k0_pay1 (F := Ideal) v32 v33 (ix2 a b) = v33 (ix2 0 0) + ∑ p : Fin 2048, v32 (ix2 p 0) := by
  unfold k0_pay1
  rw [shapeCast_self, Subsingleton.elim a 0, Subsingleton.elim b 0]
  refine congrArg (v33 (ix2 0 0) + ·) ?_
  refine (cellCast_apply _ _ _).trans ?_
  exact total_apply v32 _ _ _ _ _

/-- The running least distance of prototype `j` after a block: what was there, met with the least entry of the
    block's column `j`. -/
theorem pay2_apply (v30 : FVec Ideal S2048x2048 .f32) (v45 : Vec Ideal S1x2048 .f32) (a : Fin 1) (j : Fin 2048) :
    k0_pay2 (F := Ideal) v30 v45 (ix2 a j)
      = min (v45 (ix2 0 j)) ((Finset.univ : Finset (Fin 2048)).fold min pinf (fun p => v30 (ix2 p j))) := by
  unfold k0_pay2
  rw [shapeCast_self, Subsingleton.elim a 0]
  refine congrArg (min (v45 (ix2 0 j))) ?_
  refine (shapeCast_a_1a_apply _ _ 0 j).trans ?_
  exact colLeast_apply v30 _ _ _ j

/-! ## The distance's pointwise shape -/

/-- A column and a row broadcast over a square, added, less a constant times a square array, clamped below and
    rooted: at `(p, j)` it reads the column at `p`, the row at `j` and the array at `(p, j)`. -/
theorem distShape_apply (A : FVec Ideal S2048x1 .f32) (B : FVec Ideal S1x2048 .f32) (C : FVec Ideal S2048x2048 .f32)
    (c2 c0 : Ideal .f32) (hA : S2048x1.Broadcasts S2048x2048) (hB : S1x2048.Broadcasts S2048x2048) (p j : Fin 2048) :
    sqrt (maximumf (subf (addf (broadcastTo S2048x2048 A hA) (broadcastTo S2048x2048 B hB))
        (mulf (broadcast S2048x2048 c2) C)) (broadcast S2048x2048 c0)) (ix2 p j)
      = Ideal.sqrt (max ((A (ix2 p 0) + B (ix2 0 j)) - c2 * C (ix2 p j)) c0) := by
  show Ideal.sqrt (max ((broadcastTo S2048x2048 A hA (ix2 p j) + broadcastTo S2048x2048 B hB (ix2 p j))
    - c2 * C (ix2 p j)) c0) = _
  rw [Cert.ColumnLayout.broadcastTo_a1_ab_apply, broadcastTo_1b_ab_apply]

/-! ## The block's values in the words of the specification -/

section Block

variable (x : (⟨2, ![65536, 128]⟩ : Shape).Idx → EReal) (w : (⟨2, ![2048, 128]⟩ : Shape).Idx → EReal)
  (x0 : Vec Ideal S2048x128 .f32) (x1 : Vec Ideal S128x2048 .f32) (x2 : Vec Ideal S1x2048 .f32)
  (R : Fin 2048 → Fin 65536)
  (h0 : ∀ (p : Fin 2048) (d : Fin 128), x0 (ix2 p d) = x (ix2 (R p) d))
  (h1 : ∀ (k : Fin 128) (j : Fin 2048), x1 (ix2 k j) = w (ix2 j k))
  (h2 : ∀ (j : Fin 2048), x2 (ix2 (0 : Fin 1) j) = protoSq w j)

include h0 in
/-- When the block holds rows `R p` of `x`, the stored unit rows are the specification's unit rows. -/
theorem pay7_apply (p : Fin 2048) (d : Fin 128) : k0_pay7 (F := Ideal) x0 (ix2 p d) = unit x (R p) d := by
  refine (unitRow_apply x0 p d).trans ?_
  unfold Cert.Proto.unit rowNorm
  rw [h0 p d]
  refine congrArg (fun t => Ideal.div (x (ix2 (R p) d)) (max (Ideal.sqrt t) eps)) ?_
  exact Finset.sum_congr rfl fun k _ => by rw [h0 p k]

include h0 h1 in
/-- With the prototypes transposed in the second block, the product is the inner products of the unit rows with the
    prototypes. -/
theorem pay8_apply (p : Fin 2048) (j : Fin 2048) :
    k0_pay8 (F := Ideal) x0 x1 (ix2 p j) = logit x w (R p) j := by
  unfold k0_pay8
  refine (product_apply _ x1 _ p j).trans ?_
  unfold logit
  exact Finset.sum_congr rfl fun k _ => by rw [pay7_apply x x0 R h0 p k, h1 k j]

include h0 h1 h2 in
/-- With the prototypes' squared norms in the third block, the clamped and rooted expansion is the distance. -/
theorem pay9_apply (p : Fin 2048) (j : Fin 2048) :
    k0_pay9 (F := Ideal) x0 x1 x2 (ix2 p j) = dist x w (R p) j := by
  unfold k0_pay9
  refine (distShape_apply _ _ _ _ _ _ _ p j).trans ?_
  unfold Cert.Proto.dist
  refine congrArg (fun t => Ideal.sqrt (max t zeroW)) ?_
  refine congrArg₂ (fun a c => a - two * c) (congrArg₂ (· + ·) ?_ ?_) ?_
  · refine (sqCol_apply _ _ _ _ _ p 0).trans ?_
    unfold unitSq
    exact Finset.sum_congr rfl fun k _ => by rw [pay7_apply x x0 R h0 p k]
  · rw [shapeCast_self]
    exact h2 j
  · exact pay8_apply x w x0 x1 R h0 h1 p j

include h0 h1 h2 in
/-- Each row's least distance to a prototype, kept as a column. -/
theorem pay10_apply (p : Fin 2048) (u : Fin 1) :
    k0_pay10 (F := Ideal) x0 x1 x2 (ix2 p u) = rowMin x w (R p) := by
  unfold k0_pay10
  refine (Cert.ColumnLayout.shapeCast_a_a1_apply _ _ p u).trans ?_
  refine (rowLeast_apply _ _ _ _ p).trans ?_
  unfold rowMin
  exact Finset.fold_congr fun j _ => pay9_apply x w x0 x1 x2 R h0 h1 h2 p j

end Block

end Cert.KernelIdeal.PayValue

end
-- ==== Proof.LibRowRanges.lean ====
/-
  Rows of an `N`-row array taken in consecutive tiles of `T` rows.

  `rowsIn lo hi` is the set of rows `r` with `lo ≤ r < hi`.  A range that ends at a tile boundary and is extended by
  one tile gains exactly that tile's `T` rows: a row lies in the longer range iff it lies in the shorter one or is one of
  the tile's rows, and a sum over the longer range is the sum over the shorter one plus the sum over the tile.  A range
  is the disjoint union of two adjacent ranges, so its sum is the sum of theirs.
-/
import Idealize.ShloMosaic.PureOps.Ideal

noncomputable section

namespace Cert.RowRanges

open scoped BigOperators

variable {N : ℕ}

/-- The rows `r` with `lo ≤ r < hi`. -/
def rowsIn (lo hi : ℕ) : Finset (Fin N) := Finset.univ.filter fun r => lo ≤ r.val ∧ r.val < hi

theorem mem_rowsIn {lo hi : ℕ} {r : Fin N} : r ∈ rowsIn lo hi ↔ lo ≤ r.val ∧ r.val < hi := by
  unfold rowsIn
  rw [Finset.mem_filter]
  exact ⟨fun h => h.2, fun h => ⟨Finset.mem_univ r, h⟩⟩

/-- An empty range. -/
theorem rowsIn_self (lo : ℕ) : (rowsIn lo lo : Finset (Fin N)) = ∅ := by
  ext r
  rw [mem_rowsIn]
  constructor
  · intro h; omega
  · intro h; exact absurd h (Finset.notMem_empty r)

/-- Row `p` of tile `n`. -/
def tileRow (T n : ℕ) (h : T * (n + 1) ≤ N) (p : Fin T) : Fin N :=
  ⟨T * n + p.val, by have := p.isLt; rw [Nat.mul_succ] at h; omega⟩

theorem tileRow_val (T n : ℕ) (h : T * (n + 1) ≤ N) (p : Fin T) : (tileRow T n h p).val = T * n + p.val := rfl

theorem tileRow_injective (T n : ℕ) (h : T * (n + 1) ≤ N) : Function.Injective (tileRow T n h) := fun p q e => by
  have := congrArg Fin.val e
  rw [tileRow_val, tileRow_val] at this
  exact Fin.ext (by omega)

/-- Extending a range by one tile adds that tile's rows. -/
theorem mem_rowsIn_succ (T n lo : ℕ) (h : T * (n + 1) ≤ N) (hlo : lo ≤ T * n) (r : Fin N) :
    r ∈ rowsIn lo (T * (n + 1)) ↔ r ∈ rowsIn lo (T * n) ∨ ∃ p : Fin T, r = tileRow T n h p := by
  rw [mem_rowsIn, mem_rowsIn, Nat.mul_succ]
  constructor
  · rintro ⟨h1, h2⟩
    by_cases hr : r.val < T * n
    · exact Or.inl ⟨h1, hr⟩
    · exact Or.inr ⟨⟨r.val - T * n, by omega⟩, Fin.ext (by rw [tileRow_val]; show r.val = T * n + (r.val - T * n); omega)⟩
  · rintro (⟨h1, h2⟩ | ⟨p, rfl⟩)
    · exact ⟨h1, by omega⟩
    · rw [tileRow_val]; have := p.isLt; exact ⟨by omega, by omega⟩

/-- A property holds on the extended range iff it holds on the shorter range and on the tile. -/
theorem forall_rowsIn_succ (T n lo : ℕ) (h : T * (n + 1) ≤ N) (hlo : lo ≤ T * n) (P : Fin N → Prop) :
    (∀ r ∈ rowsIn lo (T * (n + 1)), P r) ↔ (∀ r ∈ rowsIn lo (T * n), P r) ∧ ∀ p : Fin T, P (tileRow T n h p) := by
  constructor
  · intro H
    exact ⟨fun r hr => H r ((mem_rowsIn_succ T n lo h hlo r).mpr (Or.inl hr)),
      fun p => H _ ((mem_rowsIn_succ T n lo h hlo _).mpr (Or.inr ⟨p, rfl⟩))⟩
  · rintro ⟨H1, H2⟩ r hr
    rcases (mem_rowsIn_succ T n lo h hlo r).mp hr with h1 | ⟨p, rfl⟩
    · exact H1 r h1
    · exact H2 p

/-- The sum over the extended range is the sum over the shorter range plus the sum over the tile. -/
theorem sum_rowsIn_succ {M : Type*} [AddCommMonoid M] (T n lo : ℕ) (h : T * (n + 1) ≤ N) (hlo : lo ≤ T * n)
    (f : Fin N → M) :
    ∑ r ∈ rowsIn lo (T * (n + 1)), f r = ∑ r ∈ rowsIn lo (T * n), f r + ∑ p : Fin T, f (tileRow T n h p) := by
  classical
  have e : (rowsIn lo (T * (n + 1)) : Finset (Fin N)) = rowsIn lo (T * n) ∪ Finset.univ.image (tileRow T n h) := by
    ext r
    rw [mem_rowsIn_succ T n lo h hlo, Finset.mem_union, Finset.mem_image]
    constructor
    · rintro (h1 | ⟨p, rfl⟩)
      · exact Or.inl h1
      · exact Or.inr ⟨p, Finset.mem_univ p, rfl⟩
    · rintro (h1 | ⟨p, -, rfl⟩)
      · exact Or.inl h1
      · exact Or.inr ⟨p, rfl⟩
  have hd : Disjoint (rowsIn lo (T * n) : Finset (Fin N)) (Finset.univ.image (tileRow T n h)) := by
    rw [Finset.disjoint_left]
    intro r hr hi
    obtain ⟨p, -, rfl⟩ := Finset.mem_image.mp hi
    have := (mem_rowsIn.mp hr).2
    rw [tileRow_val] at this
    omega
  rw [e, Finset.sum_union hd, Finset.sum_image (fun p _ q _ e => tileRow_injective T n h e)]

/-- A range is two adjacent ranges: for membership … -/
theorem mem_rowsIn_split (lo mid hi : ℕ) (h1 : lo ≤ mid) (h2 : mid ≤ hi) (r : Fin N) :
    r ∈ rowsIn lo hi ↔ r ∈ rowsIn lo mid ∨ r ∈ rowsIn mid hi := by
  rw [mem_rowsIn, mem_rowsIn, mem_rowsIn]
  omega

/-- … and for sums. -/
theorem sum_rowsIn_split {M : Type*} [AddCommMonoid M] (lo mid hi : ℕ) (h1 : lo ≤ mid) (h2 : mid ≤ hi) (f : Fin N → M) :
    ∑ r ∈ rowsIn lo hi, f r = ∑ r ∈ rowsIn lo mid, f r + ∑ r ∈ rowsIn mid hi, f r := by
  classical
  have e : (rowsIn lo hi : Finset (Fin N)) = rowsIn lo mid ∪ rowsIn mid hi := by
    ext r
    rw [mem_rowsIn_split lo mid hi h1 h2, Finset.mem_union]
  have hd : Disjoint (rowsIn lo mid : Finset (Fin N)) (rowsIn mid hi) := by
    rw [Finset.disjoint_left]
    intro r hr hi'
    have := (mem_rowsIn.mp hr).2
    have := (mem_rowsIn.mp hi').1
    omega
  rw [e, Finset.sum_union hd]

/-- The range of all rows. -/
theorem rowsIn_all : (rowsIn 0 N : Finset (Fin N)) = Finset.univ := by
  ext r
  rw [mem_rowsIn]
  exact ⟨fun _ => Finset.mem_univ r, fun _ => ⟨Nat.zero_le _, r.isLt⟩⟩

end Cert.RowRanges

end
-- ==== Proof.Accum.lean ====
/-
  The two running quantities across the grid, over the extended reals.

  Sixteen consecutive grid points form a group; group `g` handles rows `32768 g … 32768 g + 32767` of `x`, point `t`
  the 2048 rows from `2048 t`.  Within a group the kernel keeps, across points, the sum of the row minima of the rows
  done so far and, for each prototype, the least distance to a row done so far.  By induction on the point: after
  point `t` the sum is the zero it started from plus the sum of `rowMin` over the rows of `t`'s group up to the end of
  `t`'s block, and a bound lies below the kept minimum for prototype `j` exactly when it lies below the fold's starting
  value and below `dist r j` for each of those rows `r`.  A minimum is handled through that universal property, so no
  fold is ever reordered; the sum uses only that addition of extended reals is commutative and associative.
-/
import proofs.«123686_j32615981646586_2_alg».proof.Proof.PointVals
import proofs.«123686_j32615981646586_2_alg».proof.Proof.Blocks
import proofs.«123686_j32615981646586_2_alg».proof.Proof.PayValue
import proofs.«123686_j32615981646586_2_alg».proof.Proof.Spec
import proofs.«123686_j32615981646586_2_alg».proof.Proof.LibRowRanges

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.KernelIdeal.PointVals Cert.KernelIdeal.PayValue
open Cert.Proto Cert.RowRanges
open scoped BigOperators

variable (m : (ℓ : Loc nD τ sig) → Buf (Elt Ideal) ℓ) (c : Dev nD)

/-- The argument `x`, as the kernel finds it. -/
abbrev xArr : (⟨2, ![65536, 128]⟩ : Shape).Idx → EReal := m ((c : Thread nD τ).loc main_arg0)
/-- The argument `w`, as the kernel finds it. -/
abbrev wArr : (⟨2, ![2048, 128]⟩ : Shape).Idx → EReal := m ((c : Thread nD τ).loc main_arg1)

/-- The first row of the group of point `n`. -/
def groupStart (n : ℕ) : ℕ := 32768 * (n / 16)

/-- The rows of point `n`'s group done once point `n` has run. -/
def doneRows (n : ℕ) : Finset (Fin 65536) := rowsIn (groupStart n) (2048 * (n + 1))

theorem tile_le (t : Fin cfg0.N) : 2048 * (t.val + 1) ≤ 65536 := by have := lt32 t; omega

/-- Row `p` of point `t`'s tile is the row the block's entry `p` holds. -/
theorem tileRow_eq (t : Fin cfg0.N) (p : Fin 2048) : tileRow 2048 t.val (tile_le t) p = rowOf t p := rfl

/-- The row minima of point `t`'s block are `rowMin` of its rows. -/
theorem rowMin_at (t : Fin cfg0.N) (p : Fin 2048) (u : Fin 1) :
    k0_pay10 (F := Ideal) (iblk m c 0 t) (iblk m c 1 t) (iblk m c 2 t) (ix2 p u) = rowMin (xArr m c) (wArr m c) (rowOf t p) :=
  pay10_apply (xArr m c) (wArr m c) (iblk m c 0 t) (iblk m c 1 t) (iblk m c 2 t) (rowOf t) (iblk0_apply m c t) (iblk1_apply m c t) (iblk2_apply m c t) p u

/-- The distances of point `t`'s block are `dist` of its rows. -/
theorem dist_at (t : Fin cfg0.N) (p : Fin 2048) (j : Fin 2048) :
    k0_pay9 (F := Ideal) (iblk m c 0 t) (iblk m c 1 t) (iblk m c 2 t) (ix2 p j) = dist (xArr m c) (wArr m c) (rowOf t p) j :=
  pay9_apply (xArr m c) (wArr m c) (iblk m c 0 t) (iblk m c 1 t) (iblk m c 2 t) (rowOf t) (iblk0_apply m c t) (iblk1_apply m c t) (iblk2_apply m c t) p j

/-! ## The sum of row minima -/

/-- After the first point of a group: zero plus the sum over that point's rows. -/
theorem sum_first (t : Fin cfg0.N) (h0 : t.val % 16 = 0) :
    (outsAt0 m c t.val t.isLt).2.2.2.2.2 (ix2 (0 : Fin 1) (0 : Fin 1))
      = zeroW + ∑ r ∈ doneRows t.val, rowMin (xArr m c) (wArr m c) r := by
  have hlt := lt32 t
  rw [s1_first m c t h0]
  refine (pay1_apply _ _ 0 0).trans ?_
  rw [pay6_apply]
  refine congrArg (zeroW + ·) ?_
  have hgs : groupStart t.val = 2048 * t.val := by unfold groupStart; omega
  unfold doneRows
  rw [hgs, sum_rowsIn_succ 2048 t.val (2048 * t.val) (tile_le t) le_rfl, rowsIn_self, Finset.sum_empty, zero_add]
  exact Finset.sum_congr rfl fun p _ => rowMin_at m c t p 0

/-- After any other point: what the point before left, plus the sum over this point's rows. -/
theorem sum_next (t : Fin cfg0.N) (h0 : ¬t.val % 16 = 0)
    (ih : (outsAt0 m c (t.val - 1) (Nat.lt_of_le_of_lt (Nat.sub_le _ _) t.isLt)).2.2.2.2.2 (ix2 (0 : Fin 1) (0 : Fin 1))
      = zeroW + ∑ r ∈ doneRows (t.val - 1), rowMin (xArr m c) (wArr m c) r) :
    (outsAt0 m c t.val t.isLt).2.2.2.2.2 (ix2 (0 : Fin 1) (0 : Fin 1))
      = zeroW + ∑ r ∈ doneRows t.val, rowMin (xArr m c) (wArr m c) r := by
  have hlt := lt32 t
  rw [s1_next m c t h0]
  refine (pay1_apply _ _ 0 0).trans ?_
  rw [ih, add_assoc]
  refine congrArg (zeroW + ·) ?_
  have hgs : groupStart (t.val - 1) = groupStart t.val := by
    unfold groupStart
    have : (t.val - 1) / 16 = t.val / 16 := by omega
    rw [this]
  have ht1 : 2048 * (t.val - 1 + 1) = 2048 * t.val := by omega
  have hlo : groupStart t.val ≤ 2048 * t.val := by unfold groupStart; omega
  unfold doneRows
  rw [hgs, ht1, sum_rowsIn_succ 2048 t.val (groupStart t.val) (tile_le t) hlo]
  exact congrArg (_ + ·) (Finset.sum_congr rfl fun p _ => rowMin_at m c t p 0)

/-- After every point the kept sum is zero plus the sum of `rowMin` over the rows of the group done so far. -/
theorem sum_inv (n : ℕ) : ∀ hn : n < cfg0.N,
    (outsAt0 m c n hn).2.2.2.2.2 (ix2 (0 : Fin 1) (0 : Fin 1))
      = zeroW + ∑ r ∈ doneRows n, rowMin (xArr m c) (wArr m c) r := by
  induction n with
  | zero => intro hn; exact sum_first m c ⟨0, hn⟩ (Nat.zero_mod 16)
  | succ n ih =>
    intro hn
    by_cases h0 : (n + 1) % 16 = 0
    · exact sum_first m c ⟨n + 1, hn⟩ h0
    · exact sum_next m c ⟨n + 1, hn⟩ h0 (ih (Nat.lt_of_succ_lt hn))

/-! ## The column minima -/

/-- After the first point of a group: a bound lies below the kept minimum iff it lies below the starting value and
    below every distance of that point's rows. -/
theorem min_first (t : Fin cfg0.N) (h0 : t.val % 16 = 0) (j : Fin 2048) (b : EReal) :
    b ≤ (outsAt0 m c t.val t.isLt).2.2.2.2.1 (ix2 (0 : Fin 1) j)
      ↔ b ≤ pinf ∧ ∀ r ∈ doneRows t.val, b ≤ dist (xArr m c) (wArr m c) r j := by
  have hlt := lt32 t
  rw [s0_first m c t h0, pay2_apply _ _ 0 j, pay5_apply, le_min_iff, Finset.le_fold_min]
  have hgs : groupStart t.val = 2048 * t.val := by unfold groupStart; omega
  unfold doneRows
  rw [hgs, forall_rowsIn_succ 2048 t.val (2048 * t.val) (tile_le t) le_rfl, rowsIn_self]
  constructor
  · rintro ⟨hb, -, hp⟩
    exact ⟨hb, fun r hr => absurd hr (Finset.notMem_empty r), fun p => by
      rw [tileRow_eq, ← dist_at m c t p j]; exact hp p (Finset.mem_univ p)⟩
  · rintro ⟨hb, -, hp⟩
    exact ⟨hb, hb, fun p _ => by rw [dist_at m c t p j, ← tileRow_eq]; exact hp p⟩

/-- After any other point: the same, from what the point before left. -/
theorem min_next (t : Fin cfg0.N) (h0 : ¬t.val % 16 = 0)
    (ih : ∀ (j : Fin 2048) (b : EReal),
      b ≤ (outsAt0 m c (t.val - 1) (Nat.lt_of_le_of_lt (Nat.sub_le _ _) t.isLt)).2.2.2.2.1 (ix2 (0 : Fin 1) j)
        ↔ b ≤ pinf ∧ ∀ r ∈ doneRows (t.val - 1), b ≤ dist (xArr m c) (wArr m c) r j)
    (j : Fin 2048) (b : EReal) :
    b ≤ (outsAt0 m c t.val t.isLt).2.2.2.2.1 (ix2 (0 : Fin 1) j)
      ↔ b ≤ pinf ∧ ∀ r ∈ doneRows t.val, b ≤ dist (xArr m c) (wArr m c) r j := by
  have hlt := lt32 t
  rw [s0_next m c t h0, pay2_apply _ _ 0 j, le_min_iff, Finset.le_fold_min, ih j b]
  have hgs : groupStart (t.val - 1) = groupStart t.val := by
    unfold groupStart
    have : (t.val - 1) / 16 = t.val / 16 := by omega
    rw [this]
  have ht1 : 2048 * (t.val - 1 + 1) = 2048 * t.val := by omega
  have hlo : groupStart t.val ≤ 2048 * t.val := by unfold groupStart; omega
  unfold doneRows
  rw [hgs, ht1, forall_rowsIn_succ 2048 t.val (groupStart t.val) (tile_le t) hlo]
  constructor
  · rintro ⟨⟨hb, hr⟩, -, hp⟩
    exact ⟨hb, hr, fun p => by rw [tileRow_eq, ← dist_at m c t p j]; exact hp p (Finset.mem_univ p)⟩
  · rintro ⟨hb, hr, hp⟩
    exact ⟨⟨hb, hr⟩, hb, fun p _ => by rw [dist_at m c t p j, ← tileRow_eq]; exact hp p⟩

/-- After every point: a bound lies below the kept minimum for prototype `j` iff it lies below the starting value and
    below `dist r j` for every row `r` of the group done so far. -/
theorem min_inv (n : ℕ) : ∀ (hn : n < cfg0.N) (j : Fin 2048) (b : EReal),
    b ≤ (outsAt0 m c n hn).2.2.2.2.1 (ix2 (0 : Fin 1) j)
      ↔ b ≤ pinf ∧ ∀ r ∈ doneRows n, b ≤ dist (xArr m c) (wArr m c) r j := by
  induction n with
  | zero => intro hn j b; exact min_first m c ⟨0, hn⟩ (Nat.zero_mod 16) j b
  | succ n ih =>
    intro hn j b
    by_cases h0 : (n + 1) % 16 = 0
    · exact min_first m c ⟨n + 1, hn⟩ h0 j b
    · exact min_next m c ⟨n + 1, hn⟩ h0 (ih (Nat.lt_of_succ_lt hn)) j b

/-! ## What the last point of a group copies out -/

/-- At the last point of a group the rows done are the whole group. -/
theorem doneRows_last (t : Fin cfg0.N) (h1 : t.val % 16 = 15) :
    doneRows t.val = rowsIn (32768 * (t.val / 16)) (32768 * (t.val / 16 + 1)) := by
  unfold doneRows groupStart
  have : 2048 * (t.val + 1) = 32768 * (t.val / 16 + 1) := by omega
  rw [this]

/-- The third output's block at the last point of a group: zero plus the sum of `rowMin` over the group's rows. -/
theorem o5_at (t : Fin cfg0.N) (h1 : t.val % 16 = 15) (a b e : Fin 1) :
    (outsAt0 m c t.val t.isLt).2.2.1 (ix3 a b e)
      = zeroW + ∑ r ∈ rowsIn (32768 * (t.val / 16)) (32768 * (t.val / 16 + 1)), rowMin (xArr m c) (wArr m c) r := by
  rw [o5_last m c t h1, pay3_apply, sum_inv m c t.val t.isLt, doneRows_last t h1]

/-- The fourth output's block at the last point of a group, through its universal property. -/
theorem o6_at (t : Fin cfg0.N) (h1 : t.val % 16 = 15) (a e : Fin 1) (j : Fin 2048) (b : EReal) :
    b ≤ (outsAt0 m c t.val t.isLt).2.2.2.1 (ix3 a e j)
      ↔ b ≤ pinf ∧ ∀ r ∈ rowsIn (32768 * (t.val / 16)) (32768 * (t.val / 16 + 1)), b ≤ dist (xArr m c) (wArr m c) r j := by
  rw [o6_last m c t h1, pay4_apply, min_inv m c t.val t.isLt j b, doneRows_last t h1]

end Cert.KernelIdeal.Accum

end
-- ==== Proof.Final.lean ====
/-
  The four arrays the kernel writes, whole, after the grid has run.

  The first two arrays are written block by block, one block of 2048 rows per grid point: row `r` of the first holds
  unit row `r` of `x`, and entry `(r, j)` of the second the inner product of unit row `r` with prototype `j`; the
  blocks tile the arrays.  The last two arrays have one block per group of sixteen points, written by the group's last
  point: entry `g` of the third is the zero the running sum started from plus the sum of `rowMin` over group `g`'s
  32768 rows, and entry `(g, j)` of the fourth is the least of `dist r j` over those rows (a fold of `min` from the
  starting value, identified through its universal property: two extended reals with the same lower bounds are equal).
-/
import proofs.«123686_j32615981646586_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.PointVals Cert.KernelIdeal.PayValue
open Cert.KernelIdeal.Accum Cert.Proto Cert.RowRanges
open scoped BigOperators

variable (m : (ℓ : Loc nD τ sig) → Buf (Elt Ideal) ℓ) (c : Dev nD)

/-! ## The normalized rows -/

/-- The first array: unit row `r` of `x` in row `r`. -/
def unitArr : S65536x128.Idx → EReal := fun i => unit (xArr m c) (i 0) (i 1)

/-- Block `t` of an array with the rows' tiling, read at `(p, d)`: row `2048 t + p`. -/
theorem read_rows3 (t : Fin cfg0.N) (G : S65536x128.Idx → EReal) (p : Fin 2048) (d : Fin 128) :
    (((cfg0.win 3).blk t).view.read (Elt Ideal) G : S2048x128.Idx → EReal) (ix2 p d) = G (ix2 (rowOf t p) d) := by
  rw [View.read_apply]
  refine congrArg G ?_
  funext a
  apply Fin.ext
  match a with
  | ⟨0, _⟩ => show win0_3.index t 0 * 2048 + 1 * p.val = 2048 * t.val + p.val; rw [(index_rows t).2.1.1]; omega
  | ⟨1, _⟩ => show win0_3.index t 1 * 128 + 1 * d.val = d.val; rw [(index_rows t).2.1.2]; omega

/-- What point `t` writes back into the first array is block `t` of `unitArr`. -/
theorem flushed3_eq (t : Fin cfg0.N) :
    (dats m 0 c).flushed 3 t = ((cfg0.win 3).blk t).view.read (Elt Ideal) (unitArr m c) := by
  show (cfg0.win 3).cut (grid0.coords t) ((dats m 0 c).after 3 t) = _
  rw [after0_3, o3_eq m c t]
  funext y
  obtain ⟨p, d, rfl⟩ : ∃ (p : Fin 2048) (d : Fin 128), y = ix2 p d := ⟨y 0, y 1, eq_ix2 y⟩
  show k0_pay7 (F := Ideal) (iblk m c 0 t) (ix2 p d) = _
  rw [read_rows3]
  exact pay7_apply (xArr m c) (iblk m c 0 t) (rowOf t) (iblk0_apply m c t) p d

theorem mem_blk3 (t : Fin cfg0.N) (i : S65536x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v8_0).slice (win0_3.rect t)).set ↔ _
  rw [View.set_slice_whole, Rect.mem_set_unit]
  exact Iff.rfl

/-- The point that covers row `r`. -/
def pointOf (r : ℕ) (h : r < 65536) : Fin cfg0.N := ⟨r / 2048, lt_of_lt_of_eq (by omega : r / 2048 < 32) N_0.symm⟩

theorem cover3 (i : S65536x128.Idx) :
    ∃ t : Fin cfg0.N, (cfg0.win 3).flush t = true ∧ i ∈ ((cfg0.win 3).blk t).view.set := by
  have h0 : (i 0).val < 65536 := (i 0).isLt
  have h1 : (i 1).val < 128 := (i 1).isLt
  refine ⟨pointOf (i 0).val h0, flush0_3 _, ?_⟩
  rw [mem_blk3]
  intro a
  match a with
  | ⟨0, _⟩ =>
    show win0_3.index (pointOf (i 0).val h0) 0 * 2048 ≤ (i 0).val ∧ (i 0).val < win0_3.index (pointOf (i 0).val h0) 0 * 2048 + 2048
    rw [(index_rows _).2.1.1]
    show (i 0).val / 2048 * 2048 ≤ (i 0).val ∧ (i 0).val < (i 0).val / 2048 * 2048 + 2048
    omega
  | ⟨1, _⟩ =>
    show win0_3.index (pointOf (i 0).val h0) 1 * 128 ≤ (i 1).val ∧ (i 1).val < win0_3.index (pointOf (i 0).val h0) 1 * 128 + 128
    rw [(index_rows _).2.1.2]
    omega

/-- The first array ends holding the unit rows. -/
theorem final3 : (dats m 0 c).arrAt 3 cfg0.N = unitArr m c :=
  (dats m 0 c).arrAt_eq_of_cover 3 (unitArr m c) (fun t _ => flushed3_eq m c t) cover3

/-! ## The inner products -/

/-- The second array: the inner product of unit row `r` with prototype `j` at `(r, j)`. -/
def logitArr : S65536x2048.Idx → EReal := fun i => logit (xArr m c) (wArr m c) (i 0) (i 1)

theorem read_rows4 (t : Fin cfg0.N) (G : S65536x2048.Idx → EReal) (p : Fin 2048) (j : Fin 2048) :
    (((cfg0.win 4).blk t).view.read (Elt Ideal) G : S2048x2048.Idx → EReal) (ix2 p j) = G (ix2 (rowOf t p) j) := by
  rw [View.read_apply]
  refine congrArg G ?_
  funext a
  apply Fin.ext
  match a with
  | ⟨0, _⟩ => show win0_4.index t 0 * 2048 + 1 * p.val = 2048 * t.val + p.val; rw [(index_rows t).2.2.1]; omega
  | ⟨1, _⟩ => show win0_4.index t 1 * 2048 + 1 * j.val = j.val; rw [(index_rows t).2.2.2]; omega

/-- What point `t` writes back into the second array is block `t` of `logitArr`. -/
theorem flushed4_eq (t : Fin cfg0.N) :
    (dats m 0 c).flushed 4 t = ((cfg0.win 4).blk t).view.read (Elt Ideal) (logitArr m c) := by
  show (cfg0.win 4).cut (grid0.coords t) ((dats m 0 c).after 4 t) = _
  rw [after0_4, o4_eq m c t]
  funext y
  obtain ⟨p, j, rfl⟩ : ∃ (p : Fin 2048) (j : Fin 2048), y = ix2 p j := ⟨y 0, y 1, eq_ix2 y⟩
  show k0_pay8 (F := Ideal) (iblk m c 0 t) (iblk m c 1 t) (ix2 p j) = _
  rw [read_rows4]
  exact pay8_apply (xArr m c) (wArr m c) (iblk m c 0 t) (iblk m c 1 t) (rowOf t) (iblk0_apply m c t) (iblk1_apply m c t) p j

theorem mem_blk4 (t : Fin cfg0.N) (i : S65536x2048.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v8_1).slice (win0_4.rect t)).set ↔ _
  rw [View.set_slice_whole, Rect.mem_set_unit]
  exact Iff.rfl

theorem cover4 (i : S65536x2048.Idx) :
    ∃ t : Fin cfg0.N, (cfg0.win 4).flush t = true ∧ i ∈ ((cfg0.win 4).blk t).view.set := by
  have h0 : (i 0).val < 65536 := (i 0).isLt
  have h1 : (i 1).val < 2048 := (i 1).isLt
  refine ⟨pointOf (i 0).val h0, flush0_4 _, ?_⟩
  rw [mem_blk4]
  intro a
  match a with
  | ⟨0, _⟩ =>
    show win0_4.index (pointOf (i 0).val h0) 0 * 2048 ≤ (i 0).val ∧ (i 0).val < win0_4.index (pointOf (i 0).val h0) 0 * 2048 + 2048
    rw [(index_rows _).2.2.1]
    show (i 0).val / 2048 * 2048 ≤ (i 0).val ∧ (i 0).val < (i 0).val / 2048 * 2048 + 2048
    omega
  | ⟨1, _⟩ =>
    show win0_4.index (pointOf (i 0).val h0) 1 * 2048 ≤ (i 1).val ∧ (i 1).val < win0_4.index (pointOf (i 0).val h0) 1 * 2048 + 2048
    rw [(index_rows _).2.2.2]
    omega

/-- The second array ends holding the inner products. -/
theorem final4 : (dats m 0 c).arrAt 4 cfg0.N = logitArr m c :=
  (dats m 0 c).arrAt_eq_of_cover 4 (logitArr m c) (fun t _ => flushed4_eq m c t) cover4

/-! ## The per-group sums of row minima -/

/-- The rows of group `g`. -/
def groupRows (g : ℕ) : Finset (Fin 65536) := rowsIn (32768 * g) (32768 * (g + 1))

/-- The third array: entry `g` is zero plus the sum of `rowMin` over group `g`. -/
def groupSumArr : S2x1x1.Idx → EReal := fun i => zeroW + ∑ r ∈ groupRows (i 0).val, rowMin (xArr m c) (wArr m c) r

/-- The last point of group `g`. -/
def lastOf (g : ℕ) (h : g < 2) : Fin cfg0.N := ⟨16 * g + 15, lt_of_lt_of_eq (by omega : 16 * g + 15 < 32) N_0.symm⟩

theorem read_group5 (t : Fin cfg0.N) (G : S2x1x1.Idx → EReal) (a b e : Fin 1) :
    (((cfg0.win 5).blk t).view.read (Elt Ideal) G : S1x1x1.Idx → EReal) (ix3 a b e)
      = G (ix3 (⟨t.val / 16, by have := lt32 t; omega⟩ : Fin 2) (0 : Fin 1) (0 : Fin 1)) := by
  rw [View.read_apply]
  refine congrArg G ?_
  funext q
  apply Fin.ext
  match q with
  | ⟨0, _⟩ => show win0_5.index t 0 * 1 + 1 * a.val = t.val / 16; rw [(index_group t).1.1]; omega
  | ⟨1, _⟩ => show win0_5.index t 1 * 1 + 1 * b.val = 0; rw [(index_group t).1.2.1]; omega
  | ⟨2, _⟩ => show win0_5.index t 2 * 1 + 1 * e.val = 0; rw [(index_group t).1.2.2]; omega

/-- What the last point of a group writes back into the third array. -/
theorem flushed5_eq (t : Fin cfg0.N) (hf : (cfg0.win 5).flush t = true) :
    (dats m 0 c).flushed 5 t = ((cfg0.win 5).blk t).view.read (Elt Ideal) (groupSumArr m c) := by
  have h1 : t.val % 16 = 15 := (flush0_5 t).mp hf
  show (cfg0.win 5).cut (grid0.coords t) ((dats m 0 c).after 5 t) = _
  rw [after0_5]
  funext y
  obtain ⟨a, b, e, rfl⟩ : ∃ (a b e : Fin 1), y = ix3 a b e := ⟨y 0, y 1, y 2, eq_ix3 y⟩
  show (outsAt0 m c t.val t.isLt).2.2.1 (ix3 a b e) = _
  rw [read_group5, o5_at m c t h1 a b e]
  rfl

theorem mem_blk5 (t : Fin cfg0.N) (i : S2x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_v8_2).slice (win0_5.rect t)).set ↔ _
  rw [View.set_slice_whole, Rect.mem_set_unit]
  exact Iff.rfl

theorem cover5 (i : S2x1x1.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  refine ⟨lastOf (i 0).val h0, (flush0_5 _).mpr (by show (16 * (i 0).val + 15) % 16 = 15; omega), ?_⟩
  rw [mem_blk5]
  intro a
  match a with
  | ⟨0, _⟩ =>
    show win0_5.index (lastOf (i 0).val h0) 0 * 1 ≤ (i 0).val ∧ (i 0).val < win0_5.index (lastOf (i 0).val h0) 0 * 1 + 1
    rw [(index_group _).1.1]
    show (16 * (i 0).val + 15) / 16 * 1 ≤ (i 0).val ∧ (i 0).val < (16 * (i 0).val + 15) / 16 * 1 + 1
    omega
  | ⟨1, _⟩ =>
    show win0_5.index (lastOf (i 0).val h0) 1 * 1 ≤ (i 1).val ∧ (i 1).val < win0_5.index (lastOf (i 0).val h0) 1 * 1 + 1
    rw [(index_group _).1.2.1]
    omega
  | ⟨2, _⟩ =>
    show win0_5.index (lastOf (i 0).val h0) 2 * 1 ≤ (i 2).val ∧ (i 2).val < win0_5.index (lastOf (i 0).val h0) 2 * 1 + 1
    rw [(index_group _).1.2.2]
    omega

/-- The third array ends holding the per-group sums. -/
theorem final5 : (dats m 0 c).arrAt 5 cfg0.N = groupSumArr m c :=
  (dats m 0 c).arrAt_eq_of_cover 5 (groupSumArr m c) (flushed5_eq m c) cover5

/-! ## The per-group column minima -/

/-- The fourth array: entry `(g, j)` is the least of `dist r j` over the rows `r` of group `g`. -/
def groupMinArr : S2x1x2048.Idx → EReal := fun i =>
  (groupRows (i 0).val).fold min pinf (fun r => dist (xArr m c) (wArr m c) r (i 2))

theorem read_group6 (t : Fin cfg0.N) (G : S2x1x2048.Idx → EReal) (a e : Fin 1) (j : Fin 2048) :
    (((cfg0.win 6).blk t).view.read (Elt Ideal) G : S1x1x2048.Idx → EReal) (ix3 a e j)
      = G (ix3 (⟨t.val / 16, by have := lt32 t; omega⟩ : Fin 2) (0 : Fin 1) j) := by
  rw [View.read_apply]
  refine congrArg G ?_
  funext q
  apply Fin.ext
  match q with
  | ⟨0, _⟩ => show win0_6.index t 0 * 1 + 1 * a.val = t.val / 16; rw [(index_group t).2.1]; omega
  | ⟨1, _⟩ => show win0_6.index t 1 * 1 + 1 * e.val = 0; rw [(index_group t).2.2.1]; omega
  | ⟨2, _⟩ => show win0_6.index t 2 * 2048 + 1 * j.val = j.val; rw [(index_group t).2.2.2]; omega

/-- What the last point of a group writes back into the fourth array. -/
theorem flushed6_eq (t : Fin cfg0.N) (hf : (cfg0.win 6).flush t = true) :
    (dats m 0 c).flushed 6 t = ((cfg0.win 6).blk t).view.read (Elt Ideal) (groupMinArr m c) := by
  have h1 : t.val % 16 = 15 := (flush0_6 t).mp hf
  show (cfg0.win 6).cut (grid0.coords t) ((dats m 0 c).after 6 t) = _
  rw [after0_6]
  funext y
  obtain ⟨a, e, j, rfl⟩ : ∃ (a e : Fin 1) (j : Fin 2048), y = ix3 a e j := ⟨y 0, y 1, y 2, eq_ix3 y⟩
  show (outsAt0 m c t.val t.isLt).2.2.2.1 (ix3 a e j) = _
  rw [read_group6]
  refine eq_of_forall_le_iff fun b => ?_
  rw [o6_at m c t h1 a e j b]
  show _ ↔ b ≤ (groupRows (t.val / 16)).fold min pinf (fun r => dist (xArr m c) (wArr m c) r j)
  rw [Finset.le_fold_min]
  rfl

theorem mem_blk6 (t : Fin cfg0.N) (i : S2x1x2048.Idx) :
    i ∈ ((cfg0.win 6).blk t).view.set ↔ ∀ a : Fin 3, win0_6.index t a * S1x1x2048.size a ≤ (i a).val
      ∧ (i a).val < win0_6.index t a * S1x1x2048.size a + S1x1x2048.size a := by
  show i ∈ ((View.whole main_v8_3).slice (win0_6.rect t)).set ↔ _
  rw [View.set_slice_whole, Rect.mem_set_unit]
  exact Iff.rfl

theorem cover6 (i : S2x1x2048.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 2048 := (i 2).isLt
  refine ⟨lastOf (i 0).val h0, (flush0_6 _).mpr (by show (16 * (i 0).val + 15) % 16 = 15; omega), ?_⟩
  rw [mem_blk6]
  intro a
  match a with
  | ⟨0, _⟩ =>
    show win0_6.index (lastOf (i 0).val h0) 0 * 1 ≤ (i 0).val ∧ (i 0).val < win0_6.index (lastOf (i 0).val h0) 0 * 1 + 1
    rw [(index_group _).2.1]
    show (16 * (i 0).val + 15) / 16 * 1 ≤ (i 0).val ∧ (i 0).val < (16 * (i 0).val + 15) / 16 * 1 + 1
    omega
  | ⟨1, _⟩ =>
    show win0_6.index (lastOf (i 0).val h0) 1 * 1 ≤ (i 1).val ∧ (i 1).val < win0_6.index (lastOf (i 0).val h0) 1 * 1 + 1
    rw [(index_group _).2.2.1]
    omega
  | ⟨2, _⟩ =>
    show win0_6.index (lastOf (i 0).val h0) 2 * 2048 ≤ (i 2).val ∧ (i 2).val < win0_6.index (lastOf (i 0).val h0) 2 * 2048 + 2048
    rw [(index_group _).2.2.2]
    omega

/-- The fourth array ends holding the per-group column minima. -/
theorem final6 : (dats m 0 c).arrAt 6 cfg0.N = groupMinArr m c :=
  (dats m 0 c).arrAt_eq_of_cover 6 (groupMinArr m c) (flushed6_eq m c) cover6

end Cert.KernelIdeal.Final

end
-- ==== Proof.HostTail.lean ====
/-
  The operations after the grid, and the kernel's run in the specification's words.

  After the grid the program adds the two groups' sums of row minima and divides by the number of rows, and takes,
  prototype by prototype, the lesser of the two groups' column minima, sums over the prototypes and divides by their
  number.  The two group sums are sums over the two halves of the rows, so their total is the sum over all rows (the
  zeros they started from are the extended real zero); the lesser of the least distances over the two halves is the
  least distance over all rows (the lower bounds of both sides are the same).  The combination of the three scalar
  arguments is computed before the grid and untouched afterwards.
-/
import proofs.«123686_j32615981646586_2_alg».proof.Proof.Final
import proofs.«123686_j32615981646586_2_alg».proof.Proof.LibIndexSums
import Idealize.ShloMosaic.Lib.StableHlo.Run
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)

namespace Cert.KernelIdeal.HostTail

open Cert.KernelIdeal Cert.KernelIdeal.Gen Cert.KernelIdeal.Accum Cert.KernelIdeal.Final Cert.Proto Cert.RowRanges
open scoped BigOperators

/-! ## Reading a one-entry or one-row slice of a two-group array -/

/-- Entry `g` of a `[2, 1, 1]` array, sliced out and cast to a scalar. -/
theorem scalar_of_group (A : S2x1x1.Idx → EReal) (g : Fin 2) (off : Fin 3 → Nat) (hoff : off = ![g.val, 0, 0])
    (hs : S2x1x1.Slices off S1x1x1) (hc : S1x1x1.ShapeCasts S_) (i : S_.Idx) :
    shapeCast S_ (extractStridedSlice S1x1x1 off A hs) hc i = A (ix3 g (0 : Fin 1) (0 : Fin 1)) := by
  subst hoff
  refine (shapeCast_apply _ hc i (ix3 (0 : Fin 1) (0 : Fin 1) (0 : Fin 1)) ?_).trans ?_
  · rw [Shape.rowMajor_val_three]
    have h := (S_.rowMajor i).isLt
    have hn : S_.numel = 1 := by decide
    show (0 * 1 + 0) * 1 + 0 = (S_.rowMajor i).val
    omega
  · exact extractStridedSlice_apply _ A hs _ (ix3 g (0 : Fin 1) (0 : Fin 1)) (fun a => match a with
      | ⟨0, _⟩ => by show g.val = g.val + 0; omega
      | ⟨1, _⟩ => rfl
      | ⟨2, _⟩ => rfl)

/-- Row `g` of a `[2, 1, 2048]` array, sliced out and cast to a vector. -/
theorem vector_of_group (A : S2x1x2048.Idx → EReal) (g : Fin 2) (off : Fin 3 → Nat) (hoff : off = ![g.val, 0, 0])
    (hs : S2x1x2048.Slices off S1x1x2048) (hc : S1x1x2048.ShapeCasts S2048) (j : Fin 2048) :
    shapeCast S2048 (extractStridedSlice S1x1x2048 off A hs) hc (ix1 j) = A (ix3 g (0 : Fin 1) j) := by
  subst hoff
  refine (shapeCast_apply _ hc (ix1 j) (ix3 (0 : Fin 1) (0 : Fin 1) j) ?_).trans ?_
  · rw [Shape.rowMajor_val_three, Shape.rowMajor_val_one]
    show (0 * 1 + 0) * 2048 + j.val = j.val
    omega
  · exact extractStridedSlice_apply _ A hs _ (ix3 g (0 : Fin 1) j) (fun a => match a with
      | ⟨0, _⟩ => by show g.val = g.val + 0; omega
      | ⟨1, _⟩ => rfl
      | ⟨2, _⟩ => by show j.val = 0 + j.val; omega)

/-! ## The two halves of the rows -/

theorem groupRows_zero : groupRows 0 = rowsIn 0 32768 := rfl
theorem groupRows_one : groupRows 1 = rowsIn 32768 65536 := rfl

/-- The two group sums add up to the sum over all rows. -/
theorem sum_groups (f : Fin 65536 → EReal) :
    (∑ r ∈ groupRows 0, f r) + (∑ r ∈ groupRows 1, f r) = ∑ r : Fin 65536, f r := by
  rw [groupRows_zero, groupRows_one, ← sum_rowsIn_split 0 32768 65536 (by omega) (by omega), rowsIn_all]

/-- The lesser of the two groups' least values is the least value over all rows. -/
theorem min_groups (f : Fin 65536 → EReal) :
    min ((groupRows 0).fold min pinf f) ((groupRows 1).fold min pinf f) = (Finset.univ : Finset (Fin 65536)).fold min pinf f := by
  refine eq_of_forall_le_iff fun b => ?_
  rw [le_min_iff, Finset.le_fold_min, Finset.le_fold_min, Finset.le_fold_min, groupRows_zero, groupRows_one]
  constructor
  · rintro ⟨⟨hb, h0⟩, -, h1⟩
    refine ⟨hb, fun r _ => ?_⟩
    have hr : r ∈ (rowsIn 0 65536 : Finset (Fin 65536)) := by rw [rowsIn_all]; exact Finset.mem_univ r
    rcases (mem_rowsIn_split 0 32768 65536 (by omega) (by omega) r).mp hr with h | h
    · exact h0 r h
    · exact h1 r h
  · rintro ⟨hb, h⟩
    exact ⟨⟨hb, fun r _ => h r (Finset.mem_univ r)⟩, hb, fun r _ => h r (Finset.mem_univ r)⟩

/-! ## What the arrays hold when the grid is left, and the results after it -/

variable (m : (ℓ : Loc nD τ sig) → Buf (Elt Ideal) ℓ) (c : Dev nD)

/-- The third array when the grid is left. -/
theorem exit5 : (Pipeline.withArrays (cfgs 0).spec c (V0 m c) (fun w => (dats m 0 c).arrAt w (cfgs 0).N) (Proc.devRef .tc main_v8_2)) = groupSumArr m c :=
  (Pipeline.withArrays_arr spec0 launch0.win.arr_inj c _ _ 5).trans (final5 m c)

/-- The fourth array when the grid is left. -/
theorem exit6 : (Pipeline.withArrays (cfgs 0).spec c (V0 m c) (fun w => (dats m 0 c).arrAt w (cfgs 0).N) (Proc.devRef .tc main_v8_3)) = groupMinArr m c :=
  (Pipeline.withArrays_arr spec0 launch0.win.arr_inj c _ _ 6).trans (final6 m c)

/-- The first average's operations over any two-group array of sums. -/
theorem propagation_ops (A : S2x1x1.Idx → EReal) (i : S_.Idx) :
    Host.divf (F := Ideal)
      (addf (shapeCast S_ (extractStridedSlice S1x1x1 ![0, 0, 0] A slices_S2x1x1_S1x1x1_0_0_0) shapeCasts_S1x1x1_S_)
        (shapeCast S_ (extractStridedSlice S1x1x1 ![1, 0, 0] A slices_S2x1x1_S1x1x1_1_0_0) shapeCasts_S1x1x1_S_))
      (constant S_ .f32 0x47800000#32) i
      = Ideal.div (A (ix3 (0 : Fin 2) (0 : Fin 1) (0 : Fin 1)) + A (ix3 (1 : Fin 2) (0 : Fin 1) (0 : Fin 1))) nRows := by
  show Ideal.div
      ((shapeCast S_ (extractStridedSlice S1x1x1 ![0, 0, 0] A slices_S2x1x1_S1x1x1_0_0_0) shapeCasts_S1x1x1_S_ i : EReal)
        + (shapeCast S_ (extractStridedSlice S1x1x1 ![1, 0, 0] A slices_S2x1x1_S1x1x1_1_0_0) shapeCasts_S1x1x1_S_ i : EReal))
      nRows = _
  rw [scalar_of_group A 0 ![0, 0, 0] rfl, scalar_of_group A 1 ![1, 0, 0] rfl]

/-- The second average's operations over any two-group array of column minima. -/
theorem embSim_ops (A : S2x1x2048.Idx → EReal) (i : S_.Idx) :
    Host.divf (F := Ideal)
      (Host.reduceAdd
        (minimumf
          (shapeCast S2048 (extractStridedSlice S1x1x2048 ![0, 0, 0] A slices_S2x1x2048_S1x1x2048_0_0_0) shapeCasts_S1x1x2048_S2048)
          (shapeCast S2048 (extractStridedSlice S1x1x2048 ![1, 0, 0] A slices_S2x1x2048_S1x1x2048_1_0_0) shapeCasts_S1x1x2048_S2048))
        (constant S_ .f32 0x00000000#32) reducesTo_S2048_S_d0 h_S_)
      (constant S_ .f32 0x45000000#32) i
      = Ideal.div (∑ j : Fin 2048, min (A (ix3 (0 : Fin 2) (0 : Fin 1) j)) (A (ix3 (1 : Fin 2) (0 : Fin 1) j))) nProtos := by
  show Ideal.div
      (Host.reduceAdd (F := Ideal)
        (minimumf
          (shapeCast S2048 (extractStridedSlice S1x1x2048 ![0, 0, 0] A slices_S2x1x2048_S1x1x2048_0_0_0) shapeCasts_S1x1x2048_S2048)
          (shapeCast S2048 (extractStridedSlice S1x1x2048 ![1, 0, 0] A slices_S2x1x2048_S1x1x2048_1_0_0) shapeCasts_S1x1x2048_S2048))
        (constant S_ .f32 0x00000000#32) reducesTo_S2048_S_d0 h_S_ i)
      nProtos = _
  refine congrArg (Ideal.div · nProtos) ?_
  simp only [Host.reduceAdd, Ideal.hostReduceAdd_def]
  rw [Ideal.hostReduceAdd_total reducesTo_S2048_S_d0 (fun b => b.elim0)]
  show Ideal.ofBits .f32 0x00000000#32 + _ = _
  rw [Ideal.ofBits_zero_f32, zero_add, Cert.IndexSums.sum_idx1]
  refine Finset.sum_congr rfl fun j _ => ?_
  show min (shapeCast S2048 (extractStridedSlice S1x1x2048 ![0, 0, 0] A slices_S2x1x2048_S1x1x2048_0_0_0) shapeCasts_S1x1x2048_S2048 (ix1 j))
      (shapeCast S2048 (extractStridedSlice S1x1x2048 ![1, 0, 0] A slices_S2x1x2048_S1x1x2048_1_0_0) shapeCasts_S1x1x2048_S2048 (ix1 j)) = _
  rw [vector_of_group A 0 ![0, 0, 0] rfl, vector_of_group A 1 ![1, 0, 0] rfl]

/-- The two group sums, added and divided, are the average over all rows. -/
theorem propagation_total :
    Ideal.div (groupSumArr m c (ix3 (0 : Fin 2) (0 : Fin 1) (0 : Fin 1)) + groupSumArr m c (ix3 (1 : Fin 2) (0 : Fin 1) (0 : Fin 1))) nRows
      = propagation (xArr m c) (wArr m c) := by
  show Ideal.div ((zeroW + ∑ r ∈ groupRows 0, rowMin (xArr m c) (wArr m c) r)
      + (zeroW + ∑ r ∈ groupRows 1, rowMin (xArr m c) (wArr m c) r)) nRows = _
  unfold zeroW propagation
  rw [Ideal.ofBits_zero_f32, zero_add, zero_add, sum_groups]

/-- The lesser of the two groups' column minima, summed and divided, is the average over the prototypes. -/
theorem embSim_total :
    Ideal.div (∑ j : Fin 2048, min (groupMinArr m c (ix3 (0 : Fin 2) (0 : Fin 1) j)) (groupMinArr m c (ix3 (1 : Fin 2) (0 : Fin 1) j))) nProtos
      = embSim (xArr m c) (wArr m c) := by
  unfold embSim
  refine congrArg (Ideal.div · nProtos) (Finset.sum_congr rfl fun j _ => ?_)
  exact min_groups fun r => dist (xArr m c) (wArr m c) r j

/-- The first average: the two group sums, added and divided by the number of rows. -/
theorem propagation_eq :
    Pipeline.afterTail₀ cfgs (dats m) 0 (V0 m) [hostOps1] c main_v14
      = fun _ => propagation (xArr m c) (wArr m c) := by
  unfold Pipeline.afterTail₀
  show StableHlo.after hostOps1 _ (Proc.devRef .tc main_v14) = _
  after_results
  rw [exit5 m c]
  funext i
  exact (propagation_ops (groupSumArr m c) i).trans (propagation_total m c)

/-- The second average: the lesser of the two groups' column minima, summed and divided by the number of prototypes. -/
theorem embSim_eq :
    Pipeline.afterTail₀ cfgs (dats m) 0 (V0 m) [hostOps1] c main_v21
      = fun _ => embSim (xArr m c) (wArr m c) := by
  unfold Pipeline.afterTail₀
  show StableHlo.after hostOps1 _ (Proc.devRef .tc main_v21) = _
  after_results
  rw [exit6 m c]
  funext i
  exact (embSim_ops (groupMinArr m c) i).trans (embSim_total m c)

/-- The combination of the three scalar arguments, computed before the grid and untouched afterwards. -/
theorem combine_eq :
    Pipeline.afterTail₀ cfgs (dats m) 0 (V0 m) [hostOps1] c main_v2
      = fun _ => combine (m ((c : Thread nD τ).loc main_arg2) ix0) (m ((c : Thread nD τ).loc main_arg3) ix0)
          (m ((c : Thread nD τ).loc main_arg4) ix0) := by
  unfold Pipeline.afterTail₀
  show StableHlo.after hostOps1 _ (Proc.devRef .tc main_v2) = _
  after_results
  rw [Pipeline.withArrays_of_ne _ c (V0 m c) _ main_v2 (by exact (by decide : ∀ w, Pipeline.arrRef spec0 w ≠ main_v2))]
  show StableHlo.after hostOps0 (fun b => m (c, b)) (Proc.devRef .tc main_v2) = _
  after_results
  funext i
  obtain rfl : i = ix0 := eq_ix0 i
  rfl

/-! ## The run -/

variable (ρ : Dev nD → PrngReg)

/-- Every weakly fair execution of the kernel's program terminates with its five results at the specification's
    functions of the arguments, and the arguments unchanged. -/
theorem run : θ_run defs (onTc (τ := τ) (main (F := Ideal))) ⟨m, fun _ => 0, ρ⟩ fun r => ∀ c : Dev nD,
      r.2.mem ((c.tc : Thread nD τ).loc main_v8_0) = unitArr m c
      ∧ r.2.mem ((c.tc : Thread nD τ).loc main_v8_1) = logitArr m c
      ∧ r.2.mem ((c.tc : Thread nD τ).loc main_v2)
          = (fun _ => combine (m ((c : Thread nD τ).loc main_arg2) ix0) (m ((c : Thread nD τ).loc main_arg3) ix0)
              (m ((c : Thread nD τ).loc main_arg4) ix0))
      ∧ r.2.mem ((c.tc : Thread nD τ).loc main_v14) = (fun _ => propagation (xArr m c) (wArr m c))
      ∧ r.2.mem ((c.tc : Thread nD τ).loc main_v21) = (fun _ => embSim (xArr m c) (wArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 3).trans (final3 m c),
      ((h c).1 4).trans (final4 m c),
      ((h c).2 main_v2 (Pipeline.mem_restRefs_of main_v2 (by decide) (by decide))).trans (combine_eq m c),
      ((h c).2 main_v14 (Pipeline.mem_restRefs_of main_v14 (by decide) (by decide))).trans (propagation_eq m c),
      ((h c).2 main_v21 (Pipeline.mem_restRefs_of main_v21 (by decide) (by decide))).trans (embSim_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostTail

end
-- ==== Proof.RefStages.lean ====
/-
  The reference program read stage by stage, in the words of the specification.

  The program divides every row of `x` by its clamped Euclidean norm, takes the inner products of the unit rows
  with the prototypes, builds the distance matrix through `|z|² + |w|² − 2 z·w` clamped at zero under the square
  root, and averages the row-wise and the column-wise least distances.  Each lemma below reads one of these stages at
  explicit coordinates: a sum over an axis is the zero word plus the finite sum over that axis's coordinates, and
  the zero word is `0`; a broadcast or a transpose only renames coordinates; a least value over an axis is the fold
  of `min` from `+∞` over that axis's coordinates.  The last theorem restates the program's run with each result
  given by the specification's function of the arguments.
-/
import proofs.«123686_j32615981646586_2_alg».proof.Proof.Gen.ReferenceIdeal.Read
import proofs.«123686_j32615981646586_2_alg».proof.Proof.Spec
import Idealize.ShloMosaic.PureOps.Ideal.Laws
import Idealize.ShloMosaic.Lib.ValueIdx
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-- The array of rows. -/
abbrev Rows := (⟨S65536x128, .f32⟩ : BufTy).Contents (Elt Ideal)
/-- The array of prototypes. -/
abbrev Protos := (⟨S2048x128, .f32⟩ : BufTy).Contents (Elt Ideal)
/-- A scalar argument. -/
abbrev Scal := (⟨S_, .f32⟩ : BufTy).Contents (Elt Ideal)

/-! ## The unit rows -/

/-- The sum of squares of row `r`: the zero word plus the sum over the row's 128 entries. -/
theorem normSq_at (x0 : Rows) (r : Fin 65536) :
    Read.val_main_call0_v1 (F := Ideal) x0 (ix1 r) = ∑ k : Fin 128, x0 (ix2 r k) * x0 (ix2 r k) := by
  have e : ∀ k : Fin 128, Read.idx_main_call0_v1 (ix1 r) k = ix2 r k := fun k =>
    funext fun a => Fin.ext (by match a with | ⟨0, _⟩ => rfl | ⟨1, _⟩ => rfl)
  rw [Read.val_main_call0_v1_apply, Read.val_main_call0_cst_apply, Ideal.ofBits_def, Ideal.ofBits_zero_f32, zero_add]
  refine Finset.sum_congr rfl fun k _ => ?_
  rw [e k]
  rfl

/-- The clamped norm of row `r`, read at the single column of the row's one-column form. -/
theorem rowNorm_at (x0 : Rows) (r : Fin 65536) :
    Read.val_main_v5 (F := Ideal) x0 (ix2 r (0 : Fin 1)) = Cert.Proto.rowNorm x0 r := by
  have e : Read.idx_main_call0_v2 (ix2 r (0 : Fin 1)) = ix1 r :=
    funext fun a => Fin.ext (by match a with | ⟨0, _⟩ => rfl)
  rw [Read.val_main_v5_apply, Read.val_main_v3_apply, Read.val_main_call0_v2_apply, e, normSq_at,
    Read.val_main_v4_apply, Read.val_main_cst_0_apply]
  rfl

/-- Entry `d` of unit row `r`. -/
theorem unit_at (x0 : Rows) (r : Fin 65536) (d : Fin 128) :
    Read.val_main_v7 (F := Ideal) x0 (ix2 r d) = Cert.Proto.unit x0 r d := by
  have e : Read.idx_main_v6 (ix2 r d) = ix2 r (0 : Fin 1) :=
    funext fun a => Fin.ext (by match a with | ⟨0, _⟩ => rfl | ⟨1, _⟩ => rfl)
  rw [Read.val_main_v7_apply, Read.val_main_v6_apply, e, rowNorm_at]
  rfl

/-- The first result is the array of unit rows. -/
theorem unit_eq (x0 : Rows) :
    Read.val_main_v7 (F := Ideal) x0 = fun i => Cert.Proto.unit x0 (i 0) (i 1) :=
  funext fun i => (congrArg (Read.val_main_v7 (F := Ideal) x0) (eq_ix2 i)).trans (unit_at x0 (i 0) (i 1))

/-! ## The inner products with the prototypes -/

/-- The inner product of unit row `r` with prototype `j`: the transposed prototype array read back by rows. -/
theorem logit_at (x0 : Rows) (x1 : Protos) (r : Fin 65536) (j : Fin 2048) :
    Read.val_main_v9 (F := Ideal) x0 x1 (ix2 r j) = Cert.Proto.logit x0 x1 r j := by
  have el : ∀ k : Fin 128, Read.lidx_main_v9 (ix2 r j) k = ix2 r k := fun k =>
    funext fun a => Fin.ext (by match a with | ⟨0, _⟩ => rfl | ⟨1, _⟩ => rfl)
  have er : ∀ k : Fin 128, Read.idx_main_v8 (Read.ridx_main_v9 (ix2 r j) k) = ix2 j k := fun k =>
    funext fun a => Fin.ext (by match a with | ⟨0, _⟩ => rfl | ⟨1, _⟩ => rfl)
  rw [Read.val_main_v9_apply]
  refine Finset.sum_congr rfl fun k _ => ?_
  rw [Read.val_main_v8_apply, el k, er k, unit_at]

/-- The second result is the matrix of inner products. -/
theorem logit_eq (x0 : Rows) (x1 : Protos) :
    Read.val_main_v9 (F := Ideal) x0 x1 = fun i => Cert.Proto.logit x0 x1 (i 0) (i 1) :=
  funext fun i => (congrArg (Read.val_main_v9 (F := Ideal) x0 x1) (eq_ix2 i)).trans (logit_at x0 x1 (i 0) (i 1))

/-! ## The combination of the three scalars -/

/-- The third result: the first scalar plus half the second plus the third. -/
theorem combine_eq (x2 x3 x4 : Scal) :
    Read.val_main_v2 (F := Ideal) x2 x3 x4
      = fun _ => Cert.Proto.combine (x2 ValueIdx.ix0) (x3 ValueIdx.ix0) (x4 ValueIdx.ix0) := by
  funext i
  have hi := eq_ix0 i
  subst hi
  rfl

/-! ## The distance matrix -/

/-- The squared norm of unit row `r`. -/
theorem unitSq_at (x0 : Rows) (r : Fin 65536) :
    Read.val_main_v11 (F := Ideal) x0 (ix1 r) = Cert.Proto.unitSq x0 r := by
  have e : ∀ k : Fin 128, Read.idx_main_v11 (ix1 r) k = ix2 r k := fun k =>
    funext fun a => Fin.ext (by match a with | ⟨0, _⟩ => rfl | ⟨1, _⟩ => rfl)
  rw [Read.val_main_v11_apply, Read.val_main_cst_1_apply, Ideal.ofBits_def, Ideal.ofBits_zero_f32, zero_add]
  refine Finset.sum_congr rfl fun k _ => ?_
  rw [Read.val_main_v10_apply, e k, unit_at]
  rfl

/-- The squared norm of prototype `j`. -/
theorem protoSq_at (x1 : Protos) (j : Fin 2048) :
    Read.val_main_v14 (F := Ideal) x1 (ix1 j) = Cert.Proto.protoSq x1 j := by
  have e : ∀ k : Fin 128, Read.idx_main_v14 (ix1 j) k = ix2 j k := fun k =>
    funext fun a => Fin.ext (by match a with | ⟨0, _⟩ => rfl | ⟨1, _⟩ => rfl)
  rw [Read.val_main_v14_apply, Read.val_main_cst_2_apply, Ideal.ofBits_def, Ideal.ofBits_zero_f32, zero_add]
  refine Finset.sum_congr rfl fun k _ => ?_
  rw [e k]
  rfl

/-- The two squared norms, each broadcast along the other's axis, added at `(r, j)`. -/
theorem sqSum_at (x0 : Rows) (x1 : Protos) (r : Fin 65536) (j : Fin 2048) :
    Read.val_main_v19 (F := Ideal) x0 x1 (ix2 r j) = Cert.Proto.unitSq x0 r + Cert.Proto.protoSq x1 j := by
  have e17 : Read.idx_main_v12 (Read.idx_main_v17 (ix2 r j)) = ix1 r :=
    funext fun a => Fin.ext (by match a with | ⟨0, _⟩ => rfl)
  have e18 : Read.idx_main_v15 (Read.idx_main_v16 (Read.idx_main_v18 (ix2 r j))) = ix1 j :=
    funext fun a => Fin.ext (by match a with | ⟨0, _⟩ => rfl)
  rw [Read.val_main_v19_apply, Read.val_main_v17_apply, Read.val_main_v12_apply, e17, unitSq_at,
    Read.val_main_v18_apply, Read.val_main_v16_apply, Read.val_main_v15_apply, e18, protoSq_at]
  rfl

/-- The cross term's inner product is the same inner product as the second result's. -/
theorem cross_at (x0 : Rows) (x1 : Protos) (r : Fin 65536) (j : Fin 2048) :
    Read.val_main_v21 (F := Ideal) x0 x1 (ix2 r j) = Cert.Proto.logit x0 x1 r j := by
  have el : ∀ k : Fin 128, Read.lidx_main_v21 (ix2 r j) k = ix2 r k := fun k =>
    funext fun a => Fin.ext (by match a with | ⟨0, _⟩ => rfl | ⟨1, _⟩ => rfl)
  have er : ∀ k : Fin 128, Read.idx_main_v20 (Read.ridx_main_v21 (ix2 r j) k) = ix2 j k := fun k =>
    funext fun a => Fin.ext (by match a with | ⟨0, _⟩ => rfl | ⟨1, _⟩ => rfl)
  rw [Read.val_main_v21_apply]
  refine Finset.sum_congr rfl fun k _ => ?_
  rw [Read.val_main_v20_apply, el k, er k, unit_at]

/-- The distance between unit row `r` and prototype `j`. -/
theorem dist_at (x0 : Rows) (x1 : Protos) (r : Fin 65536) (j : Fin 2048) :
    Read.val_main_v27 (F := Ideal) x0 x1 (ix2 r j) = Cert.Proto.dist x0 x1 r j := by
  rw [Read.val_main_v27_apply, Read.val_main_v26_apply, Read.val_main_v24_apply, sqSum_at, Read.val_main_v23_apply,
    cross_at, Read.val_main_v22_apply, Read.val_main_cst_3_apply, Read.val_main_v25_apply, Read.val_main_cst_4_apply]
  rfl

/-! ## The least distances and their averages -/

/-- Row `r`'s least distance: the fold of `min` from `+∞` over the 2048 prototypes. -/
theorem rowMin_at (x0 : Rows) (x1 : Protos) (r : Fin 65536) :
    Read.val_main_v28 (F := Ideal) x0 x1 (ix1 r) = Cert.Proto.rowMin x0 x1 r := by
  have h : S65536x2048.Reduces [1] S65536 := by decide
  have e : ∀ k : Fin 2048, h.lift (ix1 r) k = ix2 r k := fun k =>
    funext fun a => Fin.ext (by match a with | ⟨0, _⟩ => rfl | ⟨1, _⟩ => rfl)
  unfold Read.val_main_v28 Cert.Proto.rowMin
  refine (Host.reduce_eq_fold_single (FloatOps.minimumf (F := Ideal) (φ := .f32)) _ _
    reducesTo_S65536x2048_S65536_d1 h h_S_ (ix1 r)).trans ?_
  exact Finset.fold_congr fun k _ =>
    (congrArg (Read.val_main_v27 (F := Ideal) x0 x1) (e k)).trans (dist_at x0 x1 r k)

/-- Prototype `j`'s least distance: the fold of `min` from `+∞` over the 65536 rows. -/
theorem colMin_at (x0 : Rows) (x1 : Protos) (j : Fin 2048) :
    Read.val_main_v31 (F := Ideal) x0 x1 (ix1 j) = Cert.Proto.colMin x0 x1 j := by
  have h : S65536x2048.Reduces [0] S2048 := by decide
  have e : ∀ k : Fin 65536, h.lift (ix1 j) k = ix2 k j := fun k =>
    funext fun a => Fin.ext (by match a with | ⟨0, _⟩ => rfl | ⟨1, _⟩ => rfl)
  unfold Read.val_main_v31 Cert.Proto.colMin
  refine (Host.reduce_eq_fold_single (FloatOps.minimumf (F := Ideal) (φ := .f32)) _ _
    reducesTo_S65536x2048_S2048_d0 h h_S_ (ix1 j)).trans ?_
  exact Finset.fold_congr fun k _ =>
    (congrArg (Read.val_main_v27 (F := Ideal) x0 x1) (e k)).trans (dist_at x0 x1 k j)

/-- A sum over the indices of a one-axis array is the sum over the axis's coordinates. -/
theorem sum_idx1 {n : Nat} (f : (⟨1, ![n]⟩ : Shape).Idx → EReal) : ∑ j, f j = ∑ a : Fin n, f (ix1 a) :=
  Fintype.sum_equiv ⟨fun j => j 0, ix1, fun j => (eq_ix1 j).symm, fun _ => rfl⟩ f (fun a => f (ix1 a))
    fun j => congrArg f (eq_ix1 j)

/-- The fourth result: the rows' least distances, summed and divided by the number of rows. -/
theorem propagation_eq (x0 : Rows) (x1 : Protos) :
    Read.val_main_v30 (F := Ideal) x0 x1 = fun _ => Cert.Proto.propagation x0 x1 := by
  funext i
  have hs : ∑ j : S65536.Idx, Read.val_main_v28 (F := Ideal) x0 x1 j = ∑ r : Fin 65536, Cert.Proto.rowMin x0 x1 r :=
    (sum_idx1 _).trans (Finset.sum_congr rfl fun r _ => rowMin_at x0 x1 r)
  rw [Read.val_main_v30_apply, Read.val_main_v29_apply, hs, Read.val_main_cst_6_apply, Ideal.ofBits_def,
    Ideal.ofBits_zero_f32, zero_add, Read.val_main_cst_7_apply]
  rfl

/-- The fifth result: the prototypes' least distances, summed and divided by the number of prototypes. -/
theorem embSim_eq (x0 : Rows) (x1 : Protos) :
    Read.val_main_v33 (F := Ideal) x0 x1 = fun _ => Cert.Proto.embSim x0 x1 := by
  funext i
  have hs : ∑ j : S2048.Idx, Read.val_main_v31 (F := Ideal) x0 x1 j = ∑ j : Fin 2048, Cert.Proto.colMin x0 x1 j :=
    (sum_idx1 _).trans (Finset.sum_congr rfl fun j _ => colMin_at x0 x1 j)
  rw [Read.val_main_v33_apply, Read.val_main_v32_apply, hs, Read.val_main_cst_9_apply, Ideal.ofBits_def,
    Ideal.ofBits_zero_f32, zero_add, Read.val_main_cst_10_apply]
  rfl

/-! ## The run, in the specification's words -/

/-- On every device, from any memory with zero counters: every weakly fair execution of the reference program
    terminates with the five results equal to the specification's functions of the arguments' launch contents — the
    unit rows, their inner products with the prototypes, the combination of the three scalars, and the two averages
    of least distances — and the arguments unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v7)
        = (fun i => Cert.Proto.unit (m ((c.tc : Thread nD τ).loc main_arg0)) (i 0) (i 1))
      ∧ r.2.mem ((c.tc : Thread nD τ).loc main_v9)
        = (fun i => Cert.Proto.logit (m ((c.tc : Thread nD τ).loc main_arg0)) (m ((c.tc : Thread nD τ).loc main_arg1)) (i 0) (i 1))
      ∧ r.2.mem ((c.tc : Thread nD τ).loc main_v2)
        = (fun _ => Cert.Proto.combine (m ((c.tc : Thread nD τ).loc main_arg2) ValueIdx.ix0)
            (m ((c.tc : Thread nD τ).loc main_arg3) ValueIdx.ix0) (m ((c.tc : Thread nD τ).loc main_arg4) ValueIdx.ix0))
      ∧ r.2.mem ((c.tc : Thread nD τ).loc main_v30)
        = (fun _ => Cert.Proto.propagation (m ((c.tc : Thread nD τ).loc main_arg0)) (m ((c.tc : Thread nD τ).loc main_arg1)))
      ∧ r.2.mem ((c.tc : Thread nD τ).loc main_v33)
        = (fun _ => Cert.Proto.embSim (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run Cert.ReferenceIdeal.defs _ _).mono (fun _ h c =>
    ⟨(h c).1.trans ((Read.val_main_v7_eq _).trans (unit_eq _)),
      (h c).2.1.trans ((Read.val_main_v9_eq _ _).trans (logit_eq _ _)),
      (h c).2.2.1.trans ((Read.val_main_v2_eq _ _ _).trans (combine_eq _ _ _)),
      (h c).2.2.2.1.trans ((Read.val_main_v30_eq _ _).trans (propagation_eq _ _)),
      (h c).2.2.2.2.1.trans ((Read.val_main_v33_eq _ _).trans (embSim_eq _ _)),
      (h c).2.2.2.2.2⟩)
    (Cert.ReferenceIdeal.Value.run (F := Ideal) m ρ)

end Cert.ReferenceIdeal.RefValue

end
-- ==== Proof.lean ====
/-
  The kernel against its reference, over the extended reals.

  Both programs take an array `x` of 65536 rows of 128 entries, 2048 prototypes of 128 entries and three scalars.  Both
  return the rows of `x` divided by their clamped Euclidean norms, the inner products of those unit rows with the
  prototypes, a fixed combination of the three scalars, and two averages of least distances between unit rows and
  prototypes: over the rows, of each row's least distance to a prototype, and over the prototypes, of each prototype's
  least distance to a row.

  The reference computes each result from whole arrays.  The kernel handles the rows in 32 blocks of 2048, in two
  groups of sixteen blocks: per block it writes the block's unit rows and inner products, and it keeps, across the
  blocks of a group, the sum of the row minima so far and the column minima so far; after the grid the two groups'
  sums are added and the two groups' column minima combined by `min`.  The two programs agree because the first two
  results are the same entry by entry, a sum over all rows is the sum of the sums over the blocks, in any grouping
  (addition of extended reals is commutative and associative, and the zero the sums start from is its identity), and a
  least value over all rows is the least of the least values over the blocks (two extended reals with the same lower
  bounds are equal).  No step needs the inputs to be finite.
-/
import proofs.«123686_j32615981646586_2_alg».proof.Defs
import proofs.«123686_j32615981646586_2_alg».proof.Proof.Gen.Kernel
import proofs.«123686_j32615981646586_2_alg».proof.Proof.Gen.Kernel.Frame
import proofs.«123686_j32615981646586_2_alg».proof.Proof.Gen.KernelIdeal
import proofs.«123686_j32615981646586_2_alg».proof.Proof.Gen.ReferenceIdeal
import proofs.«123686_j32615981646586_2_alg».proof.Proof.Gen.Pre_finite_inputs
import proofs.«123686_j32615981646586_2_alg».proof.Proof.HostTail
import proofs.«123686_j32615981646586_2_alg».proof.Proof.RefStages
import Idealize.ShloMosaic.Adequacy
import Idealize.ShloMosaic.Init

noncomputable section

namespace Cert.Proof

open Idealize.ShloMosaic Idealize.SL.Sem Idealize.ShloMosaic.ValueIdx

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2.2.2.2) (Cert.ReferenceIdeal.RefValue.run m ρ)

/-- Reading the kernel over the extended reals rewrote no operation. -/
theorem preserves : Cert.preserves_Kernel_KernelIdeal := trivial

/-- From arguments that agree, both programs end with the same five results: each is the specification's function of
    the arguments. -/
theorem algebraic : Cert.algebraic_KernelIdeal_ReferenceIdeal := by
  intro m ρ m' ρ' _ hagree
  refine ⟨fun c => Cert.KernelIdeal.Final.unitArr m c, fun c => Cert.KernelIdeal.Final.logitArr m c,
    fun c => (fun _ => Cert.Proto.combine (m ((c.tc : Thread Cert.KernelIdeal.nD Cert.KernelIdeal.τ).loc Cert.KernelIdeal.main_arg2) ix0)
      (m ((c.tc : Thread Cert.KernelIdeal.nD Cert.KernelIdeal.τ).loc Cert.KernelIdeal.main_arg3) ix0)
      (m ((c.tc : Thread Cert.KernelIdeal.nD Cert.KernelIdeal.τ).loc Cert.KernelIdeal.main_arg4) ix0)),
    fun c => (fun _ => Cert.Proto.propagation (Cert.KernelIdeal.Accum.xArr m c) (Cert.KernelIdeal.Accum.wArr m c)),
    fun c => (fun _ => Cert.Proto.embSim (Cert.KernelIdeal.Accum.xArr m c) (Cert.KernelIdeal.Accum.wArr m c)),
    Cert.KernelIdeal.HostTail.run m ρ, ?_⟩
  refine (θ_run Cert.ReferenceIdeal.defs _ _).mono (fun _ h c => ?_) (Cert.ReferenceIdeal.RefValue.run m' ρ')
  obtain ⟨h7, h9, h2, h30, h33, ha⟩ := h c
  obtain ⟨e0, e1, e2, e3, e4⟩ := hagree c
  refine ⟨h7.trans ?_, h9.trans ?_, h2.trans ?_, h30.trans ?_, h33.trans ?_, ha⟩
  · rw [e0]; rfl
  · rw [e0, e1]; rfl
  · rw [e2, e3, e4]; rfl
  · rw [e0, e1]; rfl
  · rw [e0, e1]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
